-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x6 : Shape := ⟨2, ![64, 6]⟩
abbrev S6 : Shape := ⟨1, ![6]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x6 : S_.BroadcastsInDim S64x6 (![] : Fin 0 → Fin S64x6.rank)
  reducesTo_S64x6_S_d0_1 : S64x6.ReducesTo [0, 1] S_
  bcast_S_S6 : S_.BroadcastsInDim S6 (![] : Fin 0 → Fin S6.rank)
  reducesTo_S6_S_d0 : S6.ReducesTo [0] S_

variable [Facts]

def fn_part1 {F : FTy → Type} [FloatOps F] (main_arg6 : FVec F S64 .f32) (main_arg7 : FVec F S64x6 .f32) (main_arg8 : FVec F S6 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x6 .f32 := Host.absf main_arg7
  let main_cst_8 : FVec F S_ .f32 := constant S_ .f32 0x7F800000#32
  let main_v25 : FVec F S64x6 .f32 := broadcastInDim S64x6 ![] bcast_S_S64x6 main_cst_8
  let main_v26 : IVec S64x6 1 := cmpf .olt main_v24 main_v25
  let main_c_9 : IVec S_ 1 := constantI S_ 1 1#1
  let main_v27 : IVec S_ 1 := (fun x v => Host.reduce IntOp.andi x v reducesTo_S64x6_S_d0_1 h_S_) main_v26 main_c_9
  let main_v28 : IVec S_ 1 := andi main_v23 main_v27
  let main_v29 : FVec F S6 .f32 := Host.absf main_arg8
  let main_cst_10 : FVec F S_ .f32 := constant S_ .f32 0x7F800000#32
  let main_v30 : FVec F S6 .f32 := broadcastInDim S6 ![] bcast_S_S6 main_cst_10
  let main_v31 : IVec S6 1 := cmpf .olt main_v29 main_v30
  let main_c_11 : IVec S_ 1 := constantI S_ 1 1#1
  let main_v32 : IVec S_ 1 := (fun x v => Host.reduce IntOp.andi x v reducesTo_S6_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S100000 32) (main_arg3 : FVec F S128x64 .f32) (main_arg4 : FVec F S64 .f32) (main_arg5 : FVec F S64x64 .f32) (main_arg6 : FVec F S64 .f32) (main_arg7 : FVec F S64x6 .f32) (main_arg8 : FVec F S6 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x6 : Shape := ⟨2, ![64, 6]⟩
abbrev S6 : Shape := ⟨1, ![6]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S100000x64 : Shape := ⟨2, ![100000, 64]⟩
abbrev S10000x128 : Shape := ⟨2, ![10000, 128]⟩
abbrev S10000x64 : Shape := ⟨2, ![10000, 64]⟩
abbrev S1600000x64 : Shape := ⟨2, ![1600000, 64]⟩
abbrev S1x64 : Shape := ⟨2, ![1, 64]⟩
abbrev S10000x1 : Shape := ⟨2, ![10000, 1]⟩
abbrev S64x1 : Shape := ⟨2, ![64, 1]⟩
abbrev S1x6 : Shape := ⟨2, ![1, 6]⟩

abbrev nBuf : Space → Nat
  | .hbm => 99
  | .vmem => 32
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x6, .f32⟩
  | .hbm, ⟨8, _⟩ => ⟨S6, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000, .f32⟩
  | .hbm, ⟨43, _⟩ => ⟨S1600000, .f32⟩
  | .hbm, ⟨44, _⟩ => ⟨S1600000x1, .f32⟩
  | .hbm, ⟨45, _⟩ => ⟨S100000x64, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x64, .f32⟩
  | .hbm, ⟨55, _⟩ => ⟨S1600000x64, .f32⟩
  | .hbm, ⟨56, _⟩ => ⟨S1600000x64, .f32⟩
  | .hbm, ⟨57, _⟩ => ⟨S_, .f32⟩
  | .hbm, ⟨58, _⟩ => ⟨S100000x64, .f32⟩
  | .hbm, ⟨59, _⟩ => ⟨S1600000x1, .i32⟩
  | .hbm, ⟨60, _⟩ => ⟨S100000x64, .f32⟩
  | .hbm, ⟨61, _⟩ => ⟨S1x64, .f32⟩
  | .hbm, ⟨62, _⟩ => ⟨S100000x64, .f32⟩
  | .hbm, ⟨63, _⟩ => ⟨S100000x64, .f32⟩
  | .hbm, ⟨64, _⟩ => ⟨S_, .i32⟩
  | .hbm, ⟨65, _⟩ => ⟨S1600000, .i32⟩
  | .hbm, ⟨66, _⟩ => ⟨S1600000, .i1⟩
  | .hbm, ⟨67, _⟩ => ⟨S_, .i32⟩
  | .hbm, ⟨68, _⟩ => ⟨S1600000, .i32⟩
  | .hbm, ⟨69, _⟩ => ⟨S1600000, .i32⟩
  | .hbm, ⟨70, _⟩ => ⟨S1600000, .i32⟩
  | .hbm, ⟨71, _⟩ => ⟨S1600000x1, .i32⟩
  | .hbm, ⟨72, _⟩ => ⟨S1600000x64, .f32⟩
  | .hbm, ⟨73, _⟩ => ⟨S1600000x64, .f32⟩
  | .hbm, ⟨74, _⟩ => ⟨S1600000x64, .f32⟩
  | .hbm, ⟨75, _⟩ => ⟨S_, .f32⟩
  | .hbm, ⟨76, _⟩ => ⟨S100000x64, .f32⟩
  | .hbm, ⟨77, _⟩ => ⟨S1600000x1, .i32⟩
  | .hbm, ⟨78, _⟩ => ⟨S100000x64, .f32⟩
  | .hbm, ⟨79, _⟩ => ⟨S1x64, .f32⟩
  | .hbm, ⟨80, _⟩ => ⟨S100000x64, .f32⟩
  | .hbm, ⟨81, _⟩ => ⟨S_, .f32⟩
  | .hbm, ⟨82, _⟩ => ⟨S100000, .f32⟩
  | .hbm, ⟨83, _⟩ => ⟨S_, .f32⟩
  | .hbm, ⟨84, _⟩ => ⟨S64x64, .f32⟩
  | .hbm, ⟨85, _⟩ => ⟨S100000x1, .i32⟩
  | .hbm, ⟨86, _⟩ => ⟨S64x64, .f32⟩
  | .hbm, ⟨87, _⟩ => ⟨S_, .f32⟩
  | .hbm, ⟨88, _⟩ => ⟨S64, .f32⟩
  | .hbm, ⟨89, _⟩ => ⟨S100000x1, .i32⟩
  | .hbm, ⟨90, _⟩ => ⟨S64, .f32⟩
  | .hbm, ⟨91, _⟩ => ⟨S_, .f32⟩
  | .hbm, ⟨92, _⟩ => ⟨S64, .f32⟩
  | .hbm, ⟨93, _⟩ => ⟨S64, .f32⟩
  | .hbm, ⟨94, _⟩ => ⟨S64x1, .f32⟩
  | .hbm, ⟨95, _⟩ => ⟨S64x64, .f32⟩
  | .hbm, ⟨96, _⟩ => ⟨S64x64, .f32⟩
  | .hbm, ⟨97, _⟩ => ⟨S1x6, .f32⟩
  | .hbm, ⟨98, _⟩ => ⟨S64x6, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x1, .f32⟩
  | .local _ .vmem, ⟨10, _⟩ => ⟨S10000x1, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S64x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x1, .f32⟩
  | .local _ .vmem, ⟨24, _⟩ => ⟨S10000x1, .f32⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | .local _ .vmem, ⟨28, _⟩ => ⟨S64x64, .f32⟩
  | .local _ .vmem, ⟨29, _⟩ => ⟨S64x6, .f32⟩
  | .local _ .vmem, ⟨30, _⟩ => ⟨S1x6, .f32⟩
  | .local _ .vmem, ⟨31, _⟩ => ⟨S64x6, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_8 : Ref sig .tc := ⟨.hbm, 64, rfl⟩
abbrev main_v45 : Ref sig .tc := ⟨.hbm, 65, rfl⟩
abbrev main_v46 : Ref sig .tc := ⟨.hbm, 66, rfl⟩
abbrev main_c_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_cst_12 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_13 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_14 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg3_0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem1_0 : DmaSem sig := 29
abbrev cc4_sem2_0 : DmaSem sig := 30
abbrev cc4_sem3_0 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S64x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S64x6 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x6 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x6 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  bcast_S_S64x64 : S_.BroadcastsInDim S64x64 (![] : Fin 0 → Fin S64x64.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  shapeCasts_S6_S1x6 : S6.ShapeCasts S1x6
  shapeCasts_S64x64_S64x64 : S64x64.ShapeCasts S64x64
  inb_S64x6_S64x6_0_0 : ∀ a, (![0, 0] : Fin 2 → Nat) a + S64x6.size a ≤ S64x6.size a
  h_S64x6 : 0 < S64x6.numel
  inb_S1x6_S1x6_0_0 : ∀ a, (![0, 0] : Fin 2 → Nat) a + S1x6.size a ≤ S1x6.size a
  h_S1x6 : 0 < S1x6.numel
  shapeCasts_S1x6_S1x6 : S1x6.ShapeCasts S1x6
  broadcasts_S1x6_S64x6 : S1x6.Broadcasts S64x6
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  dot_S64x64_S64x6_S64x6_1_0_0_1_n_n_wf : DotDims.WF S64x64 S64x6 S64x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S100000x1.size a
  hwx3_2 : ∀ i : grid3.Coords, EltTy.bits .f32 = 32 ∨ (Rect.block (s := S100000x1) S10000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x64.size a ≤ S100000x64.size a
  hwx3_4 : ∀ i : grid3.Coords, EltTy.bits .f32 = 32 ∨ (Rect.block (s := S100000x64) S10000x64.size (cc3_transform_4 i) (hinb3_4 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S64x64.size a ≤ S64x64.size a
  hwx4_0 : ∀ i : grid4.Coords, EltTy.bits .f32 = 32 ∨ (Rect.block (s := S64x64) S64x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x6.size a ≤ S64x6.size a
  hwx4_1 : ∀ i : grid4.Coords, EltTy.bits .f32 = 32 ∨ (Rect.block (s := S64x6) S64x6.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x6.size a ≤ S1x6.size a
  hwx4_2 : ∀ i : grid4.Coords, EltTy.bits .f32 = 32 ∨ (Rect.block (s := S1x6) S1x6.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x6.size a ≤ S64x6.size a
  hwx4_3 : ∀ i : grid4.Coords, EltTy.bits .f32 = 32 ∨ (Rect.block (s := S64x6) S64x6.size (cc4_transform_3 i) (hinb4_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x64_S64x6_S64x6_1_0_0_1_n_n : DotDims S64x64 S64x6 S64x6 where
  lhsContracting := [1]
  rhsContracting := [0]
  lhsNonContracting := [0]
  rhsNonContracting := [1]
  lhsBatch := []
  rhsBatch := []
  wf := dot_S64x64_S64x6_S64x6_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S10000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v57) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S10000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v70) S64x64.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x6.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v71) S1x6.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v72) S64x6.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x6 : Shape := ⟨2, ![64, 6]⟩
abbrev S6 : Shape := ⟨1, ![6]⟩
abbrev S1x1600000 : Shape := ⟨2, ![1, 1600000]⟩
abbrev S1600000 : Shape := ⟨1, ![1600000]⟩
abbrev S100000x64 : Shape := ⟨2, ![100000, 64]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S64x1 : Shape := ⟨2, ![64, 1]⟩
abbrev S1x6 : Shape := ⟨2, ![1, 6]⟩

abbrev nBuf : Space → Nat
  | .hbm => 144
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x64, .f32⟩
  | 4 => ⟨S64, .f32⟩
  | 5 => ⟨S64x64, .f32⟩
  | 6 => ⟨S64, .f32⟩
  | 7 => ⟨S64x6, .f32⟩
  | 8 => ⟨S6, .f32⟩
  | 9 => ⟨S1x1600000, .i32⟩
  | 10 => ⟨S1600000, .i32⟩
  | 11 => ⟨S1x1600000, .i32⟩
  | 12 => ⟨S1600000, .i32⟩
  | 13 => ⟨S100000x64, .f32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S100000, .f32⟩
  | 23 => ⟨S100000, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S1600000, .f32⟩
  | 43 => ⟨S1600000x1, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000x64, .f32⟩
  | 53 => ⟨S1600000x64, .f32⟩
  | 54 => ⟨S1600000x64, .f32⟩
  | 55 => ⟨S_, .f32⟩
  | 56 => ⟨S100000x64, .f32⟩
  | 57 => ⟨S1600000x1, .i32⟩
  | 58 => ⟨S100000x64, .f32⟩
  | 59 => ⟨S100000, .f32⟩
  | 60 => ⟨S100000x1, .f32⟩
  | 61 => ⟨S100000x64, .f32⟩
  | 62 => ⟨S100000x64, .f32⟩
  | 63 => ⟨S100000x64, .f32⟩
  | 64 => ⟨S1x64, .f32⟩
  | 65 => ⟨S100000x64, .f32⟩
  | 66 => ⟨S100000x64, .f32⟩
  | 67 => ⟨S_, .f32⟩
  | 68 => ⟨S100000x64, .f32⟩
  | 69 => ⟨S100000x64, .f32⟩
  | 70 => ⟨S100000x64, .f32⟩
  | 71 => ⟨S_, .f32⟩
  | 72 => ⟨S1600000, .f32⟩
  | 73 => ⟨S_, .f32⟩
  | 74 => ⟨S100000, .f32⟩
  | 75 => ⟨S1600000x1, .i32⟩
  | 76 => ⟨S100000, .f32⟩
  | 77 => ⟨S_, .f32⟩
  | 78 => ⟨S100000, .f32⟩
  | 79 => ⟨S100000, .f32⟩
  | 80 => ⟨S100000, .f32⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S1600000, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000, .f32⟩
  | 99 => ⟨S1600000, .f32⟩
  | 100 => ⟨S1600000x1, .f32⟩
  | 101 => ⟨S_, .i32⟩
  | 102 => ⟨S1600000, .i32⟩
  | 103 => ⟨S1600000, .i1⟩
  | 104 => ⟨S_, .i32⟩
  | 105 => ⟨S1600000, .i32⟩
  | 106 => ⟨S1600000, .i32⟩
  | 107 => ⟨S1600000, .i32⟩
  | 108 => ⟨S1600000x1, .i32⟩
  | 109 => ⟨S1600000x64, .f32⟩
  | 110 => ⟨S1600000x64, .f32⟩
  | 111 => ⟨S1600000x64, .f32⟩
  | 112 => ⟨S_, .f32⟩
  | 113 => ⟨S100000x64, .f32⟩
  | 114 => ⟨S1600000x1, .i32⟩
  | 115 => ⟨S100000x64, .f32⟩
  | 116 => ⟨S100000, .f32⟩
  | 117 => ⟨S100000x1, .f32⟩
  | 118 => ⟨S100000x64, .f32⟩
  | 119 => ⟨S100000x64, .f32⟩
  | 120 => ⟨S100000x64, .f32⟩
  | 121 => ⟨S1x64, .f32⟩
  | 122 => ⟨S100000x64, .f32⟩
  | 123 => ⟨S100000x64, .f32⟩
  | 124 => ⟨S_, .f32⟩
  | 125 => ⟨S64x64, .f32⟩
  | 126 => ⟨S100000x1, .i32⟩
  | 127 => ⟨S64x64, .f32⟩
  | _ => ⟨S100000x128, .f32⟩

abbrev hbmTy0_1 (i : Nat) : BufTy := match i % 128 with
  | 0 => ⟨S_, .f32⟩
  | 1 => ⟨S100000, .f32⟩
  | 2 => ⟨S_, .f32⟩
  | 3 => ⟨S64, .f32⟩
  | 4 => ⟨S100000x1, .i32⟩
  | 5 => ⟨S64, .f32⟩
  | 6 => ⟨S_, .f32⟩
  | 7 => ⟨S64, .f32⟩
  | 8 => ⟨S64, .f32⟩
  | 9 => ⟨S64x1, .f32⟩
  | 10 => ⟨S64x64, .f32⟩
  | 11 => ⟨S64x64, .f32⟩
  | 12 => ⟨S64x6, .f32⟩
  | 13 => ⟨S1x6, .f32⟩
  | 14 => ⟨S64x6, .f32⟩
  | 15 => ⟨S64x6, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call0_cst : Ref sig .tc := ⟨.hbm, 67, rfl⟩
abbrev main_call0_v0 : Ref sig .tc := ⟨.hbm, 68, rfl⟩
abbrev main_v48 : Ref sig .tc := ⟨.hbm, 69, rfl⟩
abbrev main_v49 : Ref sig .tc := ⟨.hbm, 70, rfl⟩
abbrev main_cst_8 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_11 : Ref sig .tc := ⟨.hbm, 81, rfl⟩
abbrev main_v57 : Ref sig .tc := ⟨.hbm, 82, rfl⟩
abbrev main_v58 : Ref sig .tc := ⟨.hbm, 83, rfl⟩
abbrev main_c_12 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c_13 : Ref sig .tc := ⟨.hbm, 90, rfl⟩
abbrev main_v64 : Ref sig .tc := ⟨.hbm, 91, rfl⟩
abbrev main_v65 : Ref sig .tc := ⟨.hbm, 92, rfl⟩
abbrev main_c_14 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_c_15 : Ref sig .tc := ⟨.hbm, 101, rfl⟩
abbrev main_v73 : Ref sig .tc := ⟨.hbm, 102, rfl⟩
abbrev main_v74 : Ref sig .tc := ⟨.hbm, 103, rfl⟩
abbrev main_c_16 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_17 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_cst_18 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_cst_19 : Ref sig .tc := ⟨.hbm, 128, rfl⟩
abbrev main_v96 : Ref sig .tc := ⟨.hbm, 129, rfl⟩
abbrev main_cst_20 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_cst_21 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64x64 : S_.BroadcastsInDim S64x64 (![] : Fin 0 → Fin S64x64.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S6_S1x6_1 : S6.BroadcastsInDim S1x6 (![1] : Fin 1 → Fin S1x6.rank)
  bcast_S1x6_S64x6_0_1 : S1x6.BroadcastsInDim S64x6 (![0, 1] : Fin 2 → Fin S64x6.rank)
  dot_S100000x128_S128x64_S100000x64_1_0_0_1_n_n_wf : DotDims.WF S100000x128 S128x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  dot_S64x64_S64x6_S64x6_1_0_0_1_n_n_wf : DotDims.WF S64x64 S64x6 S64x6 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x64_S64x6_S64x6_1_0_0_1_n_n : DotDims S64x64 S64x6 S64x6 where
  lhsContracting := [1]
  rhsContracting := [0]
  lhsNonContracting := [0]
  rhsNonContracting := [1]
  lhsBatch := []
  rhsBatch := []
  wf := dot_S64x64_S64x6_S64x6_1_0_0_1_n_n_wf

class Facts : Prop extends Facts₀ where

variable [Facts]
-- ==== Proof.KernelRun.lean ====
/-
  The idealized kernel's run, with its result named.

  @main is nine segments: host stretches alternating with five pipelined regions (two matrix products tiled over
  row blocks, two pointwise combines tiled the same way, one small untiled product). The generated frame threads one
  thread state through them — every unscoped buffer of core `c` at the boundary contents `W0 … W9` — and reads the
  last state back only at the argument arrays. Here the same chain is read back at the result array as well: every
  weakly fair execution terminates, nothing faults, the result buffer `main_v72` ends at the last boundary's contents
  `W9 m ρ c main_v72`, and the arguments end as launched. What those contents ARE, as a function of the arguments, is
  the business of the value modules.
-/
import proofs.«131065_j22316650070136_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer is one of the unscoped buffers the last thread state holds. -/
theorem result_unscoped : Proc.devRef .tc main_v72 ∈ Pipeline.ucRefs τ sig := mem_uc main_v72 (by decide)

set_option backward.isDefEq.respectTransparency.types false in
/-- Every weakly fair execution of the idealized kernel's @main terminates without a fault, with the result array at
    the last boundary's contents and every argument array as launched. -/
theorem run : θ_run defs (onTc (τ := τ) (main (F := F))) ⟨m, fun _ => 0, ρ⟩ (fun r => ∀ c : Dev nD,
      r.2.mem ((c.tc : Thread nD τ).loc main_v72) = W9 m ρ c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ result_unscoped,
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩)

end Cert.KernelIdeal.Result

end
-- ==== Proof.Entry1.lean ====
/-
  What the first host stretch computes.

  Before the first region @main computes, from the edge list alone: the source and target node of every edge, each
  node's degree (one plus the number of edges into it), the inverse square root of the degree, its square as a
  column, and every edge's coefficient (the product of the inverse roots at its two ends). The reference computes the
  same quantities by the same operations in the same order, so each of these buffers, at the first region's entry,
  holds the reference's stage of that name applied to the edge list as launched. The feature array and the first
  weight are not touched.
-/
import proofs.«131065_j22316650070136_1_alg».proof.Proof.Gen.KernelIdeal.Frame
import proofs.«131065_j22316650070136_1_alg».proof.Proof.Gen.ReferenceIdeal.Read
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Cert.ReferenceIdeal.Read

variable (m : (ℓ : Loc nD τ sig) → Buf (Elt Ideal) ℓ) (ρ : Dev nD → PrngReg)

/-- Every edge's source node, at the first region's entry. -/
theorem entry1_src (c : Dev nD) :
    W1 m ρ c (Proc.devRef .tc main_v1) = val_main_v1 (F := Ideal) (m ((c : Thread nD τ).loc main_arg1)) := by
  show StableHlo.after hostOps0 (W0 m ρ c) (Proc.devRef .tc main_v1) = _
  after_results
  rfl

/-- Every edge's target node. -/
theorem entry1_dst (c : Dev nD) :
    W1 m ρ c (Proc.devRef .tc main_v3) = val_main_v3 (F := Ideal) (m ((c : Thread nD τ).loc main_arg1)) := by
  show StableHlo.after hostOps0 (W0 m ρ c) (Proc.devRef .tc main_v3) = _
  after_results
  rfl

/-- The column of squared inverse-root degrees. -/
theorem entry1_dcol (c : Dev nD) :
    W1 m ρ c (Proc.devRef .tc main_v12) = val_main_v41 (F := Ideal) (m ((c : Thread nD τ).loc main_arg1)) := by
  show StableHlo.after hostOps0 (W0 m ρ c) (Proc.devRef .tc main_v12) = _
  after_results
  rfl

/-- The column of edge coefficients. -/
theorem entry1_coef (c : Dev nD) :
    W1 m ρ c (Proc.devRef .tc main_v28) = val_main_v27 (F := Ideal) (m ((c : Thread nD τ).loc main_arg1)) := by
  show StableHlo.after hostOps0 (W0 m ρ c) (Proc.devRef .tc main_v28) = _
  after_results_simp <;> rfl

/-- No operation of the first stretch writes an argument array: at the first region's entry each holds what was
    launched. -/
theorem entry1_arg0 (c : Dev nD) : W1 m ρ c (Proc.devRef .tc main_arg0) = m ((c : Thread nD τ).loc main_arg0) := by
  show StableHlo.after hostOps0 (W0 m ρ c) (Proc.devRef .tc main_arg0) = _
  after_results_simp <;> rfl
theorem entry1_arg2 (c : Dev nD) : W1 m ρ c (Proc.devRef .tc main_arg2) = m ((c : Thread nD τ).loc main_arg2) := by
  show StableHlo.after hostOps0 (W0 m ρ c) (Proc.devRef .tc main_arg2) = _
  after_results_simp <;> rfl
theorem entry1_arg3 (c : Dev nD) : W1 m ρ c (Proc.devRef .tc main_arg3) = m ((c : Thread nD τ).loc main_arg3) := by
  show StableHlo.after hostOps0 (W0 m ρ c) (Proc.devRef .tc main_arg3) = _
  after_results_simp <;> rfl
theorem entry1_arg4 (c : Dev nD) : W1 m ρ c (Proc.devRef .tc main_arg4) = m ((c : Thread nD τ).loc main_arg4) := by
  show StableHlo.after hostOps0 (W0 m ρ c) (Proc.devRef .tc main_arg4) = _
  after_results_simp <;> rfl
theorem entry1_arg5 (c : Dev nD) : W1 m ρ c (Proc.devRef .tc main_arg5) = m ((c : Thread nD τ).loc main_arg5) := by
  show StableHlo.after hostOps0 (W0 m ρ c) (Proc.devRef .tc main_arg5) = _
  after_results_simp <;> rfl
theorem entry1_arg6 (c : Dev nD) : W1 m ρ c (Proc.devRef .tc main_arg6) = m ((c : Thread nD τ).loc main_arg6) := by
  show StableHlo.after hostOps0 (W0 m ρ c) (Proc.devRef .tc main_arg6) = _
  after_results_simp <;> rfl
theorem entry1_arg7 (c : Dev nD) : W1 m ρ c (Proc.devRef .tc main_arg7) = m ((c : Thread nD τ).loc main_arg7) := by
  show StableHlo.after hostOps0 (W0 m ρ c) (Proc.devRef .tc main_arg7) = _
  after_results_simp <;> rfl
theorem entry1_arg8 (c : Dev nD) : W1 m ρ c (Proc.devRef .tc main_arg8) = m ((c : Thread nD τ).loc main_arg8) := by
  show StableHlo.after hostOps0 (W0 m ρ c) (Proc.devRef .tc main_arg8) = _
  after_results_simp <;> rfl

end Cert.KernelIdeal.Chain

end
-- ==== Proof.BlockProduct0.lean ====
/-
  The first matrix product's block, read at an index.

  At one grid point the body loads a block of 10000 rows of the node features and the whole 128 x 64 weight, rounds
  both to bf16 (the identity on extended reals) and multiplies them into a zero accumulator. At the ideal values the
  entry in row `p`, column `q` of what it stores is the plain sum, over the 128 contracted positions `k`, of
  `x[p, k] * w[k, q]`: no rounding and no chunk order is left in it.
-/
import proofs.«131065_j22316650070136_1_alg».proof.Proof.Gen.KernelIdeal.Skeleton
import Idealize.ShloMosaic.PureOps.Ideal.Laws
import Idealize.ShloMosaic.Lib.ValueIdx

noncomputable section

namespace Cert.KernelIdeal.BlockProduct

open Cert.KernelIdeal Cert.KernelIdeal.Gen Idealize.ShloMosaic

/-- The left operand's entry that output entry `j` meets at contracted position `k`: row of `j`, column `k`. -/
abbrev lrow0 (j : S10000x64.Idx) (k : Fin 128) : S10000x128.Idx := fun a => match a with
  | ⟨0, _⟩ => ⟨(j 0).val, (j 0).isLt⟩
  | ⟨1, _⟩ => ⟨k.val, k.isLt⟩
/-- The right operand's: row `k`, column of `j`. -/
abbrev rcol0 (j : S10000x64.Idx) (k : Fin 128) : S128x64.Idx := fun a => match a with
  | ⟨0, _⟩ => ⟨k.val, k.isLt⟩
  | ⟨1, _⟩ => ⟨(j 1).val, (j 1).isLt⟩

theorem lhs0_row (j : S10000x64.Idx) (q : dot_S10000x128_S128x64_S10000x64_1_0_0_1_n_n.contr.Idx) :
    (dot_S10000x128_S128x64_S10000x64_1_0_0_1_n_n.lhsIdx j q 0).val = (j 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs0_col (j : S10000x64.Idx) (q : dot_S10000x128_S128x64_S10000x64_1_0_0_1_n_n.contr.Idx) :
    (dot_S10000x128_S128x64_S10000x64_1_0_0_1_n_n.lhsIdx j q 1).val = (q ⟨0, by decide⟩).val :=
  dot_S10000x128_S128x64_S10000x64_1_0_0_1_n_n.lhsIdx_val_of_single rfl j q
theorem rhs0_row (j : S10000x64.Idx) (q : dot_S10000x128_S128x64_S10000x64_1_0_0_1_n_n.contr.Idx) :
    (dot_S10000x128_S128x64_S10000x64_1_0_0_1_n_n.rhsIdx j q 0).val = (q ⟨0, by decide⟩).val :=
  dot_S10000x128_S128x64_S10000x64_1_0_0_1_n_n.rhsIdx_val_of_single rfl j q
theorem rhs0_col (j : S10000x64.Idx) (q : dot_S10000x128_S128x64_S10000x64_1_0_0_1_n_n.contr.Idx) :
    (dot_S10000x128_S128x64_S10000x64_1_0_0_1_n_n.rhsIdx j q 1).val = (j 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- What the first product's body stores, entry by entry: the sum over the contracted axis of the products of the
    loaded blocks' entries. -/
theorem k0_pay1_apply (x : Vec Ideal S10000x128 .f32) (w : Vec Ideal S128x64 .f32) (j : S10000x64.Idx) :
    k0_pay1 (F := Ideal) x w j = ∑ k : Fin 128, x (lrow0 j k) * w (rcol0 j k) := by
  unfold k0_pay1
  simp only [matmul]
  rw [Ideal.matmul_constant_zero_apply, ← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx j ((ValueIdx.contrEquiv1 dot_S10000x128_S128x64_S10000x64_1_0_0_1_n_n 128 rfl rfl).symm k) = lrow0 j k := funext fun a => Fin.ext (by
    match a with
    | ⟨0, _⟩ => exact lhs0_row _ _
    | ⟨1, _⟩ => exact (lhs0_col _ _).trans hk)
  have er : dot_S10000x128_S128x64_S10000x64_1_0_0_1_n_n.rhsIdx j ((ValueIdx.contrEquiv1 dot_S10000x128_S128x64_S10000x64_1_0_0_1_n_n 128 rfl rfl).symm k) = rcol0 j k := funext fun a => Fin.ext (by
    match a with
    | ⟨0, _⟩ => exact (rhs0_row _ _).trans hk
    | ⟨1, _⟩ => exact rhs0_col _ _)
  rw [el, er]
  rfl

end Cert.KernelIdeal.BlockProduct

end
-- ==== Proof.Product0.lean ====
/-
  The first tiled matrix product, as one whole-array function.

  Region 0 runs over ten grid points. At point `t` it fetches rows `10000 t … 10000 t + 9999` of the node features
  and the whole first weight, and writes back rows `10000 t …` of the product. Entry `(r, q)` of the block that point
  `t` writes back is the sum over `k` of `x[10000 t + p, k] * w[k, q]` with `r = 10000 t + p` — the entry `(r, q)` of the
  UNTILED product `x · w`, whose sum runs over the same 128 positions. The ten row blocks tile the 100000 rows (row
  `r` lies in block `r / 10000`), so the array the region leaves is the untiled product, whatever contents `V` the
  region was entered with.
-/
import proofs.«131065_j22316650070136_1_alg».proof.Proof.Gen.KernelIdeal.Frame
import proofs.«131065_j22316650070136_1_alg».proof.Proof.Gen.ReferenceIdeal.Read
import proofs.«131065_j22316650070136_1_alg».proof.Proof.BlockProduct0
import Idealize.ShloMosaic.Lib.Pipeline.Value

set_option maxRecDepth 16384

noncomputable section

namespace Cert.KernelIdeal.Product0

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl

/-- The printed index maps, decided over the ten grid points: the feature block and the output block sit at row block
    `t`, the weight at its one block. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every row block is some point's. -/
theorem block_onto : ∀ q : Fin 10, ∃ t : Fin cfg0.N, win0_2.index t = ![q.val, 0] :=
  (by decide +kernel : ∀ q : Fin 10, ∃ t : Fin grid0.N, win0_2.index t = ![q.val, 0])

/-- What point `t` writes back is block `t` of the untiled product of the arrays the region was entered with. -/
theorem flushed_eq (c : Dev nD) (t : Fin cfg0.N) :
    (dat0 (F := Ideal) V c).flushed 2 t = ((cfg0.win 2).blk t).view.read (Elt Ideal)
      (Cert.ReferenceIdeal.Read.val_main_v4 (F := Ideal) (V c main_arg0) (V c main_arg3)) := by
  show (cfg0.win 2).cut (grid0.coords t) ((dat0 (F := Ideal) V c).after 2 t) = _
  rw [after0_2]
  unfold out0_2
  rw [View.canon_unit_zero zeros2]
  simp only [View.ld_unit_zero (S := S10000x128) zeros2, View.ld_unit_zero (S := S128x64) zeros2]
  obtain ⟨e00, e01, e10, e11, e20, e21⟩ := block_indices t
  funext j
  show k0_pay1 (F := Ideal) (iblk0 V c 0 t) (iblk0 V c 1 t) j
    = Cert.ReferenceIdeal.Read.val_main_v4 (F := Ideal) (V c main_arg0) (V c main_arg3) (((cfg0.win 2).blk t).view.emb j)
  refine (BlockProduct.k0_pay1_apply (iblk0 V c 0 t) (iblk0 V c 1 t) j).trans ?_
  refine Eq.trans ?_ (Cert.ReferenceIdeal.Read.val_main_v4_apply (V c main_arg0) (V c main_arg3) (((cfg0.win 2).blk t).view.emb j)).symm
  refine Finset.sum_congr rfl fun k _ => ?_
  have hl : ((cfg0.win 0).blk t).view.emb (BlockProduct.lrow0 j k)
      = Cert.ReferenceIdeal.Read.lidx_main_v4 (((cfg0.win 2).blk t).view.emb j) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have hr : ((cfg0.win 1).blk t).view.emb (BlockProduct.rcol0 j k)
      = Cert.ReferenceIdeal.Read.ridx_main_v4 (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega
  have h0 : (iblk0 V c 0 t (BlockProduct.lrow0 j k) : EReal)
      = V c main_arg0 (Cert.ReferenceIdeal.Read.lidx_main_v4 (((cfg0.win 2).blk t).view.emb j) k) :=
    congrArg (V c main_arg0) hl
  have h1 : (iblk0 V c 1 t (BlockProduct.rcol0 j k) : EReal)
      = V c main_arg3 (Cert.ReferenceIdeal.Read.ridx_main_v4 (((cfg0.win 2).blk t).view.emb j) k) :=
    congrArg (V c main_arg3) hr
  rw [h0, h1]

/-- An index of the output array is in point `t`'s block iff each coordinate is in the block's range on its axis. -/
theorem mem_block (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v29).slice (win0_2.rect t)).set ↔ _
  rw [View.set_slice_whole, Rect.mem_set_unit]
  exact Iff.rfl

/-- Row `r` of the output lies in the block of point `r / 10000`. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := block_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The array region 0 leaves is the untiled product of the feature array and the first weight as the region found
    them. -/
theorem product (c : Dev nD) :
    (dat0 (F := Ideal) V c).arrAt 2 cfg0.N
      = Cert.ReferenceIdeal.Read.val_main_v4 (F := Ideal) (V c main_arg0) (V c main_arg3) :=
  (dat0 (F := Ideal) V c).arrAt_eq_of_cover 2 _ (fun t _ => flushed_eq V c t) covered

end Cert.KernelIdeal.Product0

end
-- ==== Proof.Combine1.lean ====
/-
  The first combine (aggregate + self-loop term + bias, then relu), as one whole-array function.

  Region 1 runs over ten grid points. At point `t` it fetches rows `10000 t …` of the aggregated messages, of the
  layer's product and of the column of squared inverse-root degrees, and the whole bias row, and writes back rows
  `10000 t …` of `max ((agg + xw * d) + b, 0)`, the column `d` spread along each row and the row `b` down each column.
  Every operation is entry by entry, so entry `(r, q)` of the block point `t` writes back is that expression of the
  ARRAYS' entries `agg[r, q]`, `xw[r, q]`, `d[r, 0]`, `b[0, q]`; the ten row blocks tile the rows, so the array the
  region leaves is that one function of the four arrays it was entered with.
-/
import proofs.«131065_j22316650070136_1_alg».proof.Proof.Gen.KernelIdeal.Frame
import proofs.«131065_j22316650070136_1_alg».proof.Proof.Gen.ReferenceIdeal.Read
import Idealize.ShloMosaic.Lib.Pipeline.Value

set_option maxRecDepth 16384

noncomputable section

namespace Cert.KernelIdeal.Combine1

open Cert.KernelIdeal Cert.KernelIdeal.Gen
open Idealize.ShloMosaic Idealize.ShloMosaic.TcCoe Idealize.SL.Sem
open Idealize.ShloMosaic.Pipeline (Dat)

/-- The column entry an output entry of a block meets: same row, the one column. -/
abbrev colOf (j : S10000x64.Idx) : S10000x1.Idx := fun a => match a with
  | ⟨0, _⟩ => ⟨(j 0).val, (j 0).isLt⟩
  | ⟨1, _⟩ => ⟨0, Nat.one_pos⟩
/-- The bias entry it meets: the one row, same column. -/
abbrev rowOf (j : S10000x64.Idx) : S1x64.Idx := fun a => match a with
  | ⟨0, _⟩ => ⟨0, Nat.one_pos⟩
  | ⟨1, _⟩ => ⟨(j 1).val, (j 1).isLt⟩

/-- What the body stores, entry by entry, at any float values: the identity casts drop, the column is read at the
    entry's row and the bias row at its column. -/
theorem k1_pay1_apply {F : FTy → Type} [FloatOps F] (a x : Vec F S10000x64 .f32) (d : Vec F S10000x1 .f32) (b : Vec F S1x64 .f32)
    (j : S10000x64.Idx) :
    k1_pay1 a x d b j = FloatOps.maximumf (FloatOps.addf (FloatOps.addf (a j) (FloatOps.mulf (x j) (d (colOf j)))) (b (rowOf j)))
      (Scalar.ofBits .f32 0x00000000#32) := by
  unfold k1_pay1
  simp only [shapeCast_self]
  show FloatOps.maximumf (FloatOps.addf (FloatOps.addf (a j) (FloatOps.mulf (x j) (broadcastTo S10000x64 d broadcasts_S10000x1_S10000x64 j)))
      (broadcastTo S10000x64 b broadcasts_S1x64_S10000x64 j)) (Scalar.ofBits .f32 0x00000000#32) = _
  rw [broadcastTo_apply d broadcasts_S10000x1_S10000x64 j (colOf j) (fun a => match a with
      | ⟨0, _⟩ => by show (j 0).val = if (10000 : Nat) = 1 then 0 else (j 0).val; rw [if_neg (by decide)]
      | ⟨1, _⟩ => by show 0 = if (1 : Nat) = 1 then 0 else (j 1).val; rw [if_pos rfl]),
    broadcastTo_apply b broadcasts_S1x64_S10000x64 j (rowOf j) (fun a => match a with
      | ⟨0, _⟩ => by show 0 = if (1 : Nat) = 1 then 0 else (j 0).val; rw [if_pos rfl]
      | ⟨1, _⟩ => by show (j 1).val = if (64 : Nat) = 1 then 0 else (j 1).val; rw [if_neg (by decide)])]

/-- The combine with relu of four whole arrays, entry by entry. -/
def combineRelu (a x : FVec Ideal S100000x64 .f32) (d : FVec Ideal S100000x1 .f32) (b : FVec Ideal S1x64 .f32) :
    FVec Ideal S100000x64 .f32 :=
  fun i => FloatOps.maximumf (FloatOps.addf (FloatOps.addf (a i) (FloatOps.mulf (x i) (d (Cert.ReferenceIdeal.Read.idx_main_v42 i))))
    (b (Cert.ReferenceIdeal.Read.idx_main_v46 i))) (Scalar.ofBits .f32 0x00000000#32)

variable (V : (c : Dev nD) → (b : Ref sig .tc) → Buf (Elt Ideal) ((c : Thread nD τ).loc b))

theorem zeros2 : (![0, 0] : Fin 2 → Nat) = fun _ => 0 := funext fun a => by fin_cases a <;> rfl

/-- The printed index maps, decided over the ten grid points: the three row-blocked inputs and the output sit at row
    block `t`, the bias row at its one block. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Every row block is some point's. -/
theorem block_onto : ∀ q : Fin 10, ∃ t : Fin cfg1.N, win1_4.index t = ![q.val, 0] :=
  (by decide +kernel : ∀ q : Fin 10, ∃ t : Fin grid1.N, win1_4.index t = ![q.val, 0])

/-- What point `t` writes back is block `t` of the combine of the arrays the region was entered with. -/
theorem flushed_eq (c : Dev nD) (t : Fin cfg1.N) :
    (dat1 (F := Ideal) V c).flushed 4 t = ((cfg1.win 4).blk t).view.read (Elt Ideal)
      (combineRelu (V c main_v41) (V c main_v29) (V c main_v12) (V c main_v42)) := by
  show (cfg1.win 4).cut (grid1.coords t) ((dat1 (F := Ideal) V c).after 4 t) = _
  rw [after1_4]
  unfold out1_4
  rw [View.canon_unit_zero zeros2]
  simp only [View.ld_unit_zero (S := S10000x64) zeros2, View.ld_unit_zero (S := S10000x1) zeros2, View.ld_unit_zero (S := S1x64) zeros2]
  obtain ⟨e00, e01, e10, e11, e20, e21, e30, e31, e40, e41⟩ := block_indices t
  funext j
  show k1_pay1 (F := Ideal) (iblk1 V c 0 t) (iblk1 V c 1 t) (iblk1 V c 2 t) (iblk1 V c 3 t) j
    = combineRelu (V c main_v41) (V c main_v29) (V c main_v12) (V c main_v42) (((cfg1.win 4).blk t).view.emb j)
  refine (k1_pay1_apply (iblk1 V c 0 t) (iblk1 V c 1 t) (iblk1 V c 2 t) (iblk1 V c 3 t) j).trans ?_
  have p0 : ((cfg1.win 0).blk t).view.emb j = ((cfg1.win 4).blk t).view.emb j := by
    funext a; apply Fin.ext
    match a with
    | ⟨0, _⟩ => show win1_0.index t (0 : Fin 2) * 10000 + 1 * (j 0).val = win1_4.index t (0 : Fin 2) * 10000 + 1 * (j 0).val; omega
    | ⟨1, _⟩ => show win1_0.index t (1 : Fin 2) * 64 + 1 * (j 1).val = win1_4.index t (1 : Fin 2) * 64 + 1 * (j 1).val; omega
  have p1 : ((cfg1.win 1).blk t).view.emb j = ((cfg1.win 4).blk t).view.emb j := by
    funext a; apply Fin.ext
    match a with
    | ⟨0, _⟩ => show win1_1.index t (0 : Fin 2) * 10000 + 1 * (j 0).val = win1_4.index t (0 : Fin 2) * 10000 + 1 * (j 0).val; omega
    | ⟨1, _⟩ => show win1_1.index t (1 : Fin 2) * 64 + 1 * (j 1).val = win1_4.index t (1 : Fin 2) * 64 + 1 * (j 1).val; omega
  have p2 : ((cfg1.win 2).blk t).view.emb (colOf j) = Cert.ReferenceIdeal.Read.idx_main_v42 (((cfg1.win 4).blk t).view.emb j) := by
    funext a; apply Fin.ext
    match a with
    | ⟨0, _⟩ => show win1_2.index t (0 : Fin 2) * 10000 + 1 * (j 0).val = win1_4.index t (0 : Fin 2) * 10000 + 1 * (j 0).val; omega
    | ⟨1, _⟩ => show win1_2.index t (1 : Fin 2) * 1 + 1 * 0 = 0; omega
  have p3 : ((cfg1.win 3).blk t).view.emb (rowOf j) = Cert.ReferenceIdeal.Read.idx_main_v46 (((cfg1.win 4).blk t).view.emb j) := by
    funext a; apply Fin.ext
    match a with
    | ⟨0, _⟩ => show win1_3.index t (0 : Fin 2) * 1 + 1 * 0 = 0; omega
    | ⟨1, _⟩ => show win1_3.index t (1 : Fin 2) * 64 + 1 * (j 1).val = win1_4.index t (1 : Fin 2) * 64 + 1 * (j 1).val; omega
  have h0 : (iblk1 V c 0 t j : EReal) = V c main_v41 (((cfg1.win 4).blk t).view.emb j) := congrArg (V c main_v41) p0
  have h1 : (iblk1 V c 1 t j : EReal) = V c main_v29 (((cfg1.win 4).blk t).view.emb j) := congrArg (V c main_v29) p1
  have h2 : (iblk1 V c 2 t (colOf j) : EReal)
      = V c main_v12 (Cert.ReferenceIdeal.Read.idx_main_v42 (((cfg1.win 4).blk t).view.emb j)) := congrArg (V c main_v12) p2
  have h3 : (iblk1 V c 3 t (rowOf j) : EReal)
      = V c main_v42 (Cert.ReferenceIdeal.Read.idx_main_v46 (((cfg1.win 4).blk t).view.emb j)) := congrArg (V c main_v42) p3
  rw [h0, h1, h2, h3]
  rfl

/-- An index of the output array is in point `t`'s block iff each coordinate is in the block's range on its axis. -/
theorem mem_block (t : Fin cfg1.N) (i : S100000x64.Idx) :
    i ∈ ((cfg1.win 4).blk t).view.set ↔ ∀ a : Fin 2, win1_4.index t a * S10000x64.size a ≤ (i a).val ∧ (i a).val < win1_4.index t a * S10000x64.size a + S10000x64.size a := by
  show i ∈ ((View.whole main_v43).slice (win1_4.rect t)).set ↔ _
  rw [View.set_slice_whole, Rect.mem_set_unit]
  exact Iff.rfl

/-- Row `r` of the output lies in the block of point `r / 10000`. -/
theorem covered (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  obtain ⟨t, ht⟩ := block_onto ⟨(i 0).val / 10000, by omega⟩
  have q0 : win1_4.index t (0 : Fin 2) = (i 0).val / 10000 := congrFun ht 0
  have q1 : win1_4.index t (1 : Fin 2) = 0 := congrFun ht 1
  refine ⟨t, flush1_4 t, ?_⟩
  rw [mem_block]
  intro a
  match a with
  | ⟨0, _⟩ => show win1_4.index t (0 : Fin 2) * 10000 ≤ (i 0).val ∧ (i 0).val < win1_4.index t (0 : Fin 2) * 10000 + 10000; omega
  | ⟨1, _⟩ => show win1_4.index t (1 : Fin 2) * 64 ≤ (i 1).val ∧ (i 1).val < win1_4.index t (1 : Fin 2) * 64 + 64; omega

/-- The array region 1 leaves is the combine with relu of the four arrays the region found. -/
theorem combined (c : Dev nD) :
    (dat1 (F := Ideal) V c).arrAt 4 cfg1.N = combineRelu (V c main_v41) (V c main_v29) (V c main_v12) (V c main_v42) :=
  (dat1 (F := Ideal) V c).arrAt_eq_of_cover 4 _ (fun t _ => flushed_eq V c t) covered

end Cert.KernelIdeal.Combine1

end
-- ==== Proof.Layer1.lean ====
/-
  The first layer, boundary by boundary.

  Region 0 leaves the untiled product `x · W1` in its output array and changes nothing else, so at its exit the edge
  sources, targets and coefficients and the degree column are what the first stretch computed. The second stretch
  gathers the product's rows at the edge sources, scales them by the edge coefficients and scatter-adds them at the
  edge targets — the reference's aggregated messages, by the same operations on equal operands — and reshapes the
  first bias to a row, which is the reference's broadcast of it to a row. Region 1 then leaves
  `max ((agg + xw * d) + b, 0)`: the reference's first-layer activations.
-/
import proofs.«131065_j22316650070136_1_alg».proof.Proof.Entry1
import proofs.«131065_j22316650070136_1_alg».proof.Proof.Product0
import proofs.«131065_j22316650070136_1_alg».proof.Proof.Combine1
import Idealize.ShloMosaic.Lib.ValueLayout

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Cert.ReferenceIdeal.Read

/-- A vector of 64 reshaped to a row is the vector broadcast to a row: entry `(0, q)` of either is entry `q`. -/
theorem row_of_64 (x : FVec Ideal S64 .f32) :
    shapeCast S1x64 x shapeCasts_S64_S1x64 = val_main_v45 (F := Ideal) x := by
  funext i
  obtain ⟨u, q, rfl⟩ : ∃ (u : Fin 1) (q : Fin 64), i = ValueIdx.ix2 u q := ⟨i 0, i 1, ValueIdx.eq_ix2 i⟩
  rw [val_main_v45_apply]
  exact (ValueIdx.shapeCast_a_1a_apply x shapeCasts_S64_S1x64 u q).trans
    (congrArg x (funext fun a => Fin.ext (by match a with | ⟨0, _⟩ => rfl)))

/-- The reference's first-layer activations are the combine with relu of its aggregated messages, its product, its
    degree column and its bias row, entry by entry. -/
theorem activations_eq (x0 : FVec Ideal S100000x128 .f32) (x1 : (⟨S2x1600000, .i32⟩ : BufTy).Contents (Elt Ideal))
    (x3 : FVec Ideal S128x64 .f32) (x4 : FVec Ideal S64 .f32) :
    val_main_v48 (F := Ideal) x0 x1 x3 x4
      = Combine1.combineRelu (val_main_v39 (F := Ideal) x0 x1 x3) (val_main_v4 (F := Ideal) x0 x3) (val_main_v41 (F := Ideal) x1)
          (val_main_v45 (F := Ideal) x4) := by
  funext i
  rw [val_main_v48_apply, val_main_v47_apply, val_main_v44_apply, val_main_v43_apply, val_main_v42_apply, val_main_v46_apply,
    val_main_call0_v0_apply, val_main_call0_cst_apply]
  rfl

variable (m : (ℓ : Loc nD τ sig) → Buf (Elt Ideal) ℓ) (ρ : Dev nD → PrngReg)

/-! ## At region 0's exit -/

/-- The first product. -/
theorem exit0_xw (c : Dev nD) :
    W2 m ρ c (Proc.devRef .tc main_v29)
      = val_main_v4 (F := Ideal) (m ((c : Thread nD τ).loc main_arg0)) (m ((c : Thread nD τ).loc main_arg3)) := by
  refine (W2_arr m ρ c 2).trans ((Product0.product (V1 m ρ) c).trans ?_)
  show val_main_v4 (F := Ideal) (W1 m ρ c (Proc.devRef .tc main_arg0)) (W1 m ρ c (Proc.devRef .tc main_arg3)) = _
  rw [entry1_arg0, entry1_arg3]

theorem exit0_src (c : Dev nD) :
    W2 m ρ c (Proc.devRef .tc main_v1) = val_main_v1 (F := Ideal) (m ((c : Thread nD τ).loc main_arg1)) :=
  (W2_of_ne m ρ c main_v1 (by decide)).trans (entry1_src m ρ c)
theorem exit0_dst (c : Dev nD) :
    W2 m ρ c (Proc.devRef .tc main_v3) = val_main_v3 (F := Ideal) (m ((c : Thread nD τ).loc main_arg1)) :=
  (W2_of_ne m ρ c main_v3 (by decide)).trans (entry1_dst m ρ c)
theorem exit0_dcol (c : Dev nD) :
    W2 m ρ c (Proc.devRef .tc main_v12) = val_main_v41 (F := Ideal) (m ((c : Thread nD τ).loc main_arg1)) :=
  (W2_of_ne m ρ c main_v12 (by decide)).trans (entry1_dcol m ρ c)
theorem exit0_coef (c : Dev nD) :
    W2 m ρ c (Proc.devRef .tc main_v28) = val_main_v27 (F := Ideal) (m ((c : Thread nD τ).loc main_arg1)) :=
  (W2_of_ne m ρ c main_v28 (by decide)).trans (entry1_coef m ρ c)
theorem exit0_arg2 (c : Dev nD) : W2 m ρ c (Proc.devRef .tc main_arg2) = m ((c : Thread nD τ).loc main_arg2) :=
  (W2_of_ne m ρ c main_arg2 (by decide)).trans (entry1_arg2 m ρ c)
theorem exit0_arg4 (c : Dev nD) : W2 m ρ c (Proc.devRef .tc main_arg4) = m ((c : Thread nD τ).loc main_arg4) :=
  (W2_of_ne m ρ c main_arg4 (by decide)).trans (entry1_arg4 m ρ c)
theorem exit0_arg5 (c : Dev nD) : W2 m ρ c (Proc.devRef .tc main_arg5) = m ((c : Thread nD τ).loc main_arg5) :=
  (W2_of_ne m ρ c main_arg5 (by decide)).trans (entry1_arg5 m ρ c)
theorem exit0_arg6 (c : Dev nD) : W2 m ρ c (Proc.devRef .tc main_arg6) = m ((c : Thread nD τ).loc main_arg6) :=
  (W2_of_ne m ρ c main_arg6 (by decide)).trans (entry1_arg6 m ρ c)
theorem exit0_arg7 (c : Dev nD) : W2 m ρ c (Proc.devRef .tc main_arg7) = m ((c : Thread nD τ).loc main_arg7) :=
  (W2_of_ne m ρ c main_arg7 (by decide)).trans (entry1_arg7 m ρ c)
theorem exit0_arg8 (c : Dev nD) : W2 m ρ c (Proc.devRef .tc main_arg8) = m ((c : Thread nD τ).loc main_arg8) :=
  (W2_of_ne m ρ c main_arg8 (by decide)).trans (entry1_arg8 m ρ c)

/-! ## At region 1's entry: after the second stretch -/

/-- The first layer's aggregated messages. -/
theorem entry3_agg (c : Dev nD) :
    W3 m ρ c (Proc.devRef .tc main_v41)
      = val_main_v39 (F := Ideal) (m ((c : Thread nD τ).loc main_arg0)) (m ((c : Thread nD τ).loc main_arg1)) (m ((c : Thread nD τ).loc main_arg3)) := by
  show StableHlo.after hostOps1 (W2 m ρ c) (Proc.devRef .tc main_v41) = _
  after_results_simp
  rw [exit0_xw, exit0_src, exit0_dst, exit0_coef]
  rfl

/-- The first bias as a row. -/
theorem entry3_brow (c : Dev nD) :
    W3 m ρ c (Proc.devRef .tc main_v42) = val_main_v45 (F := Ideal) (m ((c : Thread nD τ).loc main_arg4)) := by
  show StableHlo.after hostOps1 (W2 m ρ c) (Proc.devRef .tc main_v42) = _
  after_results_simp
  rw [exit0_arg4]
  exact row_of_64 _

theorem entry3_xw (c : Dev nD) :
    W3 m ρ c (Proc.devRef .tc main_v29)
      = val_main_v4 (F := Ideal) (m ((c : Thread nD τ).loc main_arg0)) (m ((c : Thread nD τ).loc main_arg3)) := by
  show StableHlo.after hostOps1 (W2 m ρ c) (Proc.devRef .tc main_v29) = _
  after_results_simp
  exact exit0_xw m ρ c
theorem entry3_src (c : Dev nD) :
    W3 m ρ c (Proc.devRef .tc main_v1) = val_main_v1 (F := Ideal) (m ((c : Thread nD τ).loc main_arg1)) := by
  show StableHlo.after hostOps1 (W2 m ρ c) (Proc.devRef .tc main_v1) = _
  after_results_simp
  exact exit0_src m ρ c
theorem entry3_dst (c : Dev nD) :
    W3 m ρ c (Proc.devRef .tc main_v3) = val_main_v3 (F := Ideal) (m ((c : Thread nD τ).loc main_arg1)) := by
  show StableHlo.after hostOps1 (W2 m ρ c) (Proc.devRef .tc main_v3) = _
  after_results_simp
  exact exit0_dst m ρ c
theorem entry3_dcol (c : Dev nD) :
    W3 m ρ c (Proc.devRef .tc main_v12) = val_main_v41 (F := Ideal) (m ((c : Thread nD τ).loc main_arg1)) := by
  show StableHlo.after hostOps1 (W2 m ρ c) (Proc.devRef .tc main_v12) = _
  after_results_simp
  exact exit0_dcol m ρ c
theorem entry3_coef (c : Dev nD) :
    W3 m ρ c (Proc.devRef .tc main_v28) = val_main_v27 (F := Ideal) (m ((c : Thread nD τ).loc main_arg1)) := by
  show StableHlo.after hostOps1 (W2 m ρ c) (Proc.devRef .tc main_v28) = _
  after_results_simp
  exact exit0_coef m ρ c
theorem entry3_arg2 (c : Dev nD) : W3 m ρ c (Proc.devRef .tc main_arg2) = m ((c : Thread nD τ).loc main_arg2) := by
  show StableHlo.after hostOps1 (W2 m ρ c) (Proc.devRef .tc main_arg2) = _
  after_results_simp
  exact exit0_arg2 m ρ c
theorem entry3_arg5 (c : Dev nD) : W3 m ρ c (Proc.devRef .tc main_arg5) = m ((c : Thread nD τ).loc main_arg5) := by
  show StableHlo.after hostOps1 (W2 m ρ c) (Proc.devRef .tc main_arg5) = _
  after_results_simp
  exact exit0_arg5 m ρ c
theorem entry3_arg6 (c : Dev nD) : W3 m ρ c (Proc.devRef .tc main_arg6) = m ((c : Thread nD τ).loc main_arg6) := by
  show StableHlo.after hostOps1 (W2 m ρ c) (Proc.devRef .tc main_arg6) = _
  after_results_simp
  exact exit0_arg6 m ρ c
theorem entry3_arg7 (c : Dev nD) : W3 m ρ c (Proc.devRef .tc main_arg7) = m ((c : Thread nD τ).loc main_arg7) := by
  show StableHlo.after hostOps1 (W2 m ρ c) (Proc.devRef .tc main_arg7) = _
  after_results_simp
  exact exit0_arg7 m ρ c
theorem entry3_arg8 (c : Dev nD) : W3 m ρ c (Proc.devRef .tc main_arg8) = m ((c : Thread nD τ).loc main_arg8) := by
  show StableHlo.after hostOps1 (W2 m ρ c) (Proc.devRef .tc main_arg8) = _
  after_results_simp
  exact exit0_arg8 m ρ c

/-! ## At region 1's exit -/

/-- The first layer's activations. -/
theorem exit1_h (c : Dev nD) :
    W4 m ρ c (Proc.devRef .tc main_v43)
      = val_main_v48 (F := Ideal) (m ((c : Thread nD τ).loc main_arg0)) (m ((c : Thread nD τ).loc main_arg1)) (m ((c : Thread nD τ).loc main_arg3))
          (m ((c : Thread nD τ).loc main_arg4)) := by
  refine (W4_arr m ρ c 4).trans ((Combine1.combined (V3 m ρ) c).trans ?_)
  show Combine1.combineRelu (W3 m ρ c (Proc.devRef .tc main_v41)) (W3 m ρ c (Proc.devRef .tc main_v29)) (W3 m ρ c (Proc.devRef .tc main_v12))
      (W3 m ρ c (Proc.devRef .tc main_v42)) = _
  rw [entry3_agg, entry3_xw, entry3_dcol, entry3_brow]
  exact (activations_eq _ _ _ _).symm

theorem exit1_src (c : Dev nD) :
    W4 m ρ c (Proc.devRef .tc main_v1) = val_main_v1 (F := Ideal) (m ((c : Thread nD τ).loc main_arg1)) :=
  (W4_of_ne m ρ c main_v1 (by decide)).trans (entry3_src m ρ c)
theorem exit1_dst (c : Dev nD) :
    W4 m ρ c (Proc.devRef .tc main_v3) = val_main_v3 (F := Ideal) (m ((c : Thread nD τ).loc main_arg1)) :=
  (W4_of_ne m ρ c main_v3 (by decide)).trans (entry3_dst m ρ c)
theorem exit1_coef (c : Dev nD) :
    W4 m ρ c (Proc.devRef .tc main_v28) = val_main_v27 (F := Ideal) (m ((c : Thread nD τ).loc main_arg1)) :=
  (W4_of_ne m ρ c main_v28 (by decide)).trans (entry3_coef m ρ c)
theorem exit1_dcol (c : Dev nD) :
    W4 m ρ c (Proc.devRef .tc main_v12) = val_main_v41 (F := Ideal) (m ((c : Thread nD τ).loc main_arg1)) := by
  refine (W4_arr m ρ c 2).trans (((dat1 (V3 m ρ) c).arrAt_in 2 rfl _).trans ((A_eq1 (V3 m ρ) c 2).trans ?_))
  exact entry3_dcol m ρ c
theorem exit1_arg2 (c : Dev nD) : W4 m ρ c (Proc.devRef .tc main_arg2) = m ((c : Thread nD τ).loc main_arg2) :=
  (W4_of_ne m ρ c main_arg2 (by decide)).trans (entry3_arg2 m ρ c)
theorem exit1_arg5 (c : Dev nD) : W4 m ρ c (Proc.devRef .tc main_arg5) = m ((c : Thread nD τ).loc main_arg5) :=
  (W4_of_ne m ρ c main_arg5 (by decide)).trans (entry3_arg5 m ρ c)
theorem exit1_arg6 (c : Dev nD) : W4 m ρ c (Proc.devRef .tc main_arg6) = m ((c : Thread nD τ).loc main_arg6) :=
  (W4_of_ne m ρ c main_arg6 (by decide)).trans (entry3_arg6 m ρ c)
theorem exit1_arg7 (c : Dev nD) : W4 m ρ c (Proc.devRef .tc main_arg7) = m ((c : Thread nD τ).loc main_arg7) :=
  (W4_of_ne m ρ c main_arg7 (by decide)).trans (entry3_arg7 m ρ c)
theorem exit1_arg8 (c : Dev nD) : W4 m ρ c (Proc.devRef .tc main_arg8) = m ((c : Thread nD τ).loc main_arg8) :=
  (W4_of_ne m ρ c main_arg8 (by decide)).trans (entry3_arg8 m ρ c)

end Cert.KernelIdeal.Chain

end
-- ==== Proof.Product2.lean ====
/-
  The second tiled matrix product, as one whole-array function.

  Region 2 multiplies the first layer's activations by the second weight, tiled like the first product: at grid point
  `t` it fetches rows `10000 t …` of the activations and the whole 64 x 64 weight and writes back rows `10000 t …` of the
  product. At the ideal values the entry in row `p`, column `q` of a block's product is the sum over the 64 contracted
  positions `k` of `h[p, k] * w[k, q]` (the cast before it is to its own shape, the rounding to bf16 the identity), which
  is entry `(10000 t + p, q)` of the untiled product; the ten row blocks tile the rows, so the array the region leaves
  is the untiled product of the two arrays it was entered with.
-/
import proofs.«131065_j22316650070136_1_alg».proof.Proof.Gen.KernelIdeal.Frame
import proofs.«131065_j22316650070136_1_alg».proof.Proof.Gen.ReferenceIdeal.Read
import Idealize.ShloMosaic.Lib.Pipeline.Value
import Idealize.ShloMosaic.PureOps.Ideal.Laws
import Idealize.ShloMosaic.Lib.ValueIdx

set_option maxRecDepth 16384

noncomputable section

namespace Cert.KernelIdeal.Product2

open Cert.KernelIdeal Cert.KernelIdeal.Gen
open Idealize.ShloMosaic Idealize.ShloMosaic.TcCoe Idealize.SL.Sem
open Idealize.ShloMosaic.Pipeline (Dat)

/-- The left operand's entry that output entry `j` meets at contracted position `k`: row of `j`, column `k`. -/
abbrev lrow (j : S10000x64.Idx) (k : Fin 64) : S10000x64.Idx := fun a => match a with
  | ⟨0, _⟩ => ⟨(j 0).val, (j 0).isLt⟩
  | ⟨1, _⟩ => ⟨k.val, k.isLt⟩
/-- The right operand's: row `k`, column of `j`. -/
abbrev rcol (j : S10000x64.Idx) (k : Fin 64) : S64x64.Idx := fun a => match a with
  | ⟨0, _⟩ => ⟨k.val, k.isLt⟩
  | ⟨1, _⟩ => ⟨(j 1).val, (j 1).isLt⟩

theorem lhs_row (j : S10000x64.Idx) (q : dot_S10000x64_S64x64_S10000x64_1_0_0_1_n_n.contr.Idx) :
    (dot_S10000x64_S64x64_S10000x64_1_0_0_1_n_n.lhsIdx j q 0).val = (j 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_col (j : S10000x64.Idx) (q : dot_S10000x64_S64x64_S10000x64_1_0_0_1_n_n.contr.Idx) :
    (dot_S10000x64_S64x64_S10000x64_1_0_0_1_n_n.lhsIdx j q 1).val = (q ⟨0, by decide⟩).val :=
  dot_S10000x64_S64x64_S10000x64_1_0_0_1_n_n.lhsIdx_val_of_single rfl j q
theorem rhs_row (j : S10000x64.Idx) (q : dot_S10000x64_S64x64_S10000x64_1_0_0_1_n_n.contr.Idx) :
    (dot_S10000x64_S64x64_S10000x64_1_0_0_1_n_n.rhsIdx j q 0).val = (q ⟨0, by decide⟩).val :=
  dot_S10000x64_S64x64_S10000x64_1_0_0_1_n_n.rhsIdx_val_of_single rfl j q
theorem rhs_col (j : S10000x64.Idx) (q : dot_S10000x64_S64x64_S10000x64_1_0_0_1_n_n.contr.Idx) :
    (dot_S10000x64_S64x64_S10000x64_1_0_0_1_n_n.rhsIdx j q 1).val = (j 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- What the second product's body stores, entry by entry: the sum over the contracted axis of the products of the
    loaded blocks' entries. -/
theorem k2_pay1_apply (x : Vec Ideal S10000x64 .f32) (w : Vec Ideal S64x64 .f32) (j : S10000x64.Idx) :
    k2_pay1 (F := Ideal) x w j = ∑ k : Fin 64, x (lrow j k) * w (rcol j k) := by
  unfold k2_pay1
  simp only [matmul, shapeCast_self]
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx j ((ValueIdx.contrEquiv1 dot_S10000x64_S64x64_S10000x64_1_0_0_1_n_n 64 rfl rfl).symm k) = lrow j k := funext fun a => Fin.ext (by
    match a with
    | ⟨0, _⟩ => exact lhs_row _ _
    | ⟨1, _⟩ => exact (lhs_col _ _).trans hk)
  have er : dot_S10000x64_S64x64_S10000x64_1_0_0_1_n_n.rhsIdx j ((ValueIdx.contrEquiv1 dot_S10000x64_S64x64_S10000x64_1_0_0_1_n_n 64 rfl rfl).symm k) = rcol j k := funext fun a => Fin.ext (by
    match a with
    | ⟨0, _⟩ => exact (rhs_row _ _).trans hk
    | ⟨1, _⟩ => exact rhs_col _ _)
  rw [el, er]
  rfl

/-- The untiled product of two whole arrays, entry by entry. -/
def product (h : FVec Ideal S100000x64 .f32) (w : FVec Ideal S64x64 .f32) : FVec Ideal S100000x64 .f32 :=
  fun i => ∑ k : Fin 64, h (Cert.ReferenceIdeal.Read.lidx_main_v49 i k) * w (Cert.ReferenceIdeal.Read.ridx_main_v49 i k)

variable (V : (c : Dev nD) → (b : Ref sig .tc) → Buf (Elt Ideal) ((c : Thread nD τ).loc b))

theorem zeros2 : (![0, 0] : Fin 2 → Nat) = fun _ => 0 := funext fun a => by fin_cases a <;> rfl

/-- The printed index maps, decided over the ten grid points. -/
theorem block_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Every row block is some point's. -/
theorem block_onto : ∀ q : Fin 10, ∃ t : Fin cfg2.N, win2_2.index t = ![q.val, 0] :=
  (by decide +kernel : ∀ q : Fin 10, ∃ t : Fin grid2.N, win2_2.index t = ![q.val, 0])

/-- What point `t` writes back is block `t` of the untiled product of the arrays the region was entered with. -/
theorem flushed_eq (c : Dev nD) (t : Fin cfg2.N) :
    (dat2 (F := Ideal) V c).flushed 2 t = ((cfg2.win 2).blk t).view.read (Elt Ideal)
      (product (V c main_v43) (V c main_arg5)) := by
  show (cfg2.win 2).cut (grid2.coords t) ((dat2 (F := Ideal) V c).after 2 t) = _
  rw [after2_2]
  unfold out2_2
  rw [View.canon_unit_zero zeros2]
  simp only [View.ld_unit_zero (S := S10000x64) zeros2, View.ld_unit_zero (S := S64x64) zeros2]
  obtain ⟨e00, e01, e10, e11, e20, e21⟩ := block_indices t
  funext j
  show k2_pay1 (F := Ideal) (iblk2 V c 0 t) (iblk2 V c 1 t) j
    = product (V c main_v43) (V c main_arg5) (((cfg2.win 2).blk t).view.emb j)
  refine (k2_pay1_apply (iblk2 V c 0 t) (iblk2 V c 1 t) j).trans ?_
  refine Finset.sum_congr rfl fun k _ => ?_
  have hl : ((cfg2.win 0).blk t).view.emb (lrow j k)
      = Cert.ReferenceIdeal.Read.lidx_main_v49 (((cfg2.win 2).blk t).view.emb j) k := by
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 64 + 1 * k.val = k.val; omega
  have hr : ((cfg2.win 1).blk t).view.emb (rcol j k)
      = Cert.ReferenceIdeal.Read.ridx_main_v49 (((cfg2.win 2).blk t).view.emb j) k := by
    funext a; apply Fin.ext
    match a with
    | ⟨0, _⟩ => show win2_1.index t (0 : Fin 2) * 64 + 1 * k.val = k.val; omega
    | ⟨1, _⟩ => show win2_1.index t (1 : Fin 2) * 64 + 1 * (j 1).val = win2_2.index t (1 : Fin 2) * 64 + 1 * (j 1).val; omega
  have h0 : (iblk2 V c 0 t (lrow j k) : EReal)
      = V c main_v43 (Cert.ReferenceIdeal.Read.lidx_main_v49 (((cfg2.win 2).blk t).view.emb j) k) :=
    congrArg (V c main_v43) hl
  have h1 : (iblk2 V c 1 t (rcol j k) : EReal)
      = V c main_arg5 (Cert.ReferenceIdeal.Read.ridx_main_v49 (((cfg2.win 2).blk t).view.emb j) k) :=
    congrArg (V c main_arg5) hr
  rw [h0, h1]

/-- An index of the output array is in point `t`'s block iff each coordinate is in the block's range on its axis. -/
theorem mem_block (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v44).slice (win2_2.rect t)).set ↔ _
  rw [View.set_slice_whole, Rect.mem_set_unit]
  exact Iff.rfl

/-- Row `r` of the output lies in the block of point `r / 10000`. -/
theorem covered (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := block_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_block]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- The array region 2 leaves is the untiled product of the activations and the second weight as the region found
    them. -/
theorem multiplied (c : Dev nD) :
    (dat2 (F := Ideal) V c).arrAt 2 cfg2.N = product (V c main_v43) (V c main_arg5) :=
  (dat2 (F := Ideal) V c).arrAt_eq_of_cover 2 _ (fun t _ => flushed_eq V c t) covered

end Cert.KernelIdeal.Product2

end
-- ==== Proof.Combine3.lean ====
/-
  The second combine (aggregate + self-loop term + bias, no relu), as one whole-array function.

  Region 3 is the second layer's combine: at grid point `t` it fetches rows `10000 t …` of the second layer's
  aggregated messages, of its product and of the column of squared inverse-root degrees, and the whole second bias
  row, and writes back rows `10000 t …` of `(agg + xw * d) + b`. Entry `(r, q)` of the block point `t` writes back is
  that expression of `agg[r, q]`, `xw[r, q]`, `d[r, 0]`, `b[0, q]`, and the ten row blocks tile the rows: the array the
  region leaves is that one function of the four arrays it was entered with.
-/
import proofs.«131065_j22316650070136_1_alg».proof.Proof.Gen.KernelIdeal.Frame
import proofs.«131065_j22316650070136_1_alg».proof.Proof.Gen.ReferenceIdeal.Read
import Idealize.ShloMosaic.Lib.Pipeline.Value

set_option maxRecDepth 16384

noncomputable section

namespace Cert.KernelIdeal.Combine3

open Cert.KernelIdeal Cert.KernelIdeal.Gen
open Idealize.ShloMosaic Idealize.ShloMosaic.TcCoe Idealize.SL.Sem
open Idealize.ShloMosaic.Pipeline (Dat)

/-- The column entry an output entry of a block meets: same row, the one column. -/
abbrev colOf (j : S10000x64.Idx) : S10000x1.Idx := fun a => match a with
  | ⟨0, _⟩ => ⟨(j 0).val, (j 0).isLt⟩
  | ⟨1, _⟩ => ⟨0, Nat.one_pos⟩
/-- The bias entry it meets: the one row, same column. -/
abbrev rowOf (j : S10000x64.Idx) : S1x64.Idx := fun a => match a with
  | ⟨0, _⟩ => ⟨0, Nat.one_pos⟩
  | ⟨1, _⟩ => ⟨(j 1).val, (j 1).isLt⟩

/-- What the body stores, entry by entry, at any float values. -/
theorem k3_pay1_apply {F : FTy → Type} [FloatOps F] (a x : Vec F S10000x64 .f32) (d : Vec F S10000x1 .f32) (b : Vec F S1x64 .f32)
    (j : S10000x64.Idx) :
    k3_pay1 a x d b j = FloatOps.addf (FloatOps.addf (a j) (FloatOps.mulf (x j) (d (colOf j)))) (b (rowOf j)) := by
  unfold k3_pay1
  simp only [shapeCast_self]
  show FloatOps.addf (FloatOps.addf (a j) (FloatOps.mulf (x j) (broadcastTo S10000x64 d broadcasts_S10000x1_S10000x64 j)))
      (broadcastTo S10000x64 b broadcasts_S1x64_S10000x64 j) = _
  rw [broadcastTo_apply d broadcasts_S10000x1_S10000x64 j (colOf j) (fun a => match a with
      | ⟨0, _⟩ => by show (j 0).val = if (10000 : Nat) = 1 then 0 else (j 0).val; rw [if_neg (by decide)]
      | ⟨1, _⟩ => by show 0 = if (1 : Nat) = 1 then 0 else (j 1).val; rw [if_pos rfl]),
    broadcastTo_apply b broadcasts_S1x64_S10000x64 j (rowOf j) (fun a => match a with
      | ⟨0, _⟩ => by show 0 = if (1 : Nat) = 1 then 0 else (j 0).val; rw [if_pos rfl]
      | ⟨1, _⟩ => by show (j 1).val = if (64 : Nat) = 1 then 0 else (j 1).val; rw [if_neg (by decide)])]

/-- The combine of four whole arrays, entry by entry. -/
def combine (a x : FVec Ideal S100000x64 .f32) (d : FVec Ideal S100000x1 .f32) (b : FVec Ideal S1x64 .f32) :
    FVec Ideal S100000x64 .f32 :=
  fun i => FloatOps.addf (FloatOps.addf (a i) (FloatOps.mulf (x i) (d (Cert.ReferenceIdeal.Read.idx_main_v87 i))))
    (b (Cert.ReferenceIdeal.Read.idx_main_v91 i))

variable (V : (c : Dev nD) → (b : Ref sig .tc) → Buf (Elt Ideal) ((c : Thread nD τ).loc b))

theorem zeros2 : (![0, 0] : Fin 2 → Nat) = fun _ => 0 := funext fun a => by fin_cases a <;> rfl

/-- The printed index maps, decided over the ten grid points. -/
theorem block_indices : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Every row block is some point's. -/
theorem block_onto : ∀ q : Fin 10, ∃ t : Fin cfg3.N, win3_4.index t = ![q.val, 0] :=
  (by decide +kernel : ∀ q : Fin 10, ∃ t : Fin grid3.N, win3_4.index t = ![q.val, 0])

/-- What point `t` writes back is block `t` of the combine of the arrays the region was entered with. -/
theorem flushed_eq (c : Dev nD) (t : Fin cfg3.N) :
    (dat3 (F := Ideal) V c).flushed 4 t = ((cfg3.win 4).blk t).view.read (Elt Ideal)
      (combine (V c main_v56) (V c main_v44) (V c main_v12) (V c main_v57)) := by
  show (cfg3.win 4).cut (grid3.coords t) ((dat3 (F := Ideal) V c).after 4 t) = _
  rw [after3_4]
  unfold out3_4
  rw [View.canon_unit_zero zeros2]
  simp only [View.ld_unit_zero (S := S10000x64) zeros2, View.ld_unit_zero (S := S10000x1) zeros2, View.ld_unit_zero (S := S1x64) zeros2]
  obtain ⟨e00, e01, e10, e11, e20, e21, e30, e31, e40, e41⟩ := block_indices t
  funext j
  show k3_pay1 (F := Ideal) (iblk3 V c 0 t) (iblk3 V c 1 t) (iblk3 V c 2 t) (iblk3 V c 3 t) j
    = combine (V c main_v56) (V c main_v44) (V c main_v12) (V c main_v57) (((cfg3.win 4).blk t).view.emb j)
  refine (k3_pay1_apply (iblk3 V c 0 t) (iblk3 V c 1 t) (iblk3 V c 2 t) (iblk3 V c 3 t) j).trans ?_
  have p0 : ((cfg3.win 0).blk t).view.emb j = ((cfg3.win 4).blk t).view.emb j := by
    funext a; apply Fin.ext
    match a with
    | ⟨0, _⟩ => show win3_0.index t (0 : Fin 2) * 10000 + 1 * (j 0).val = win3_4.index t (0 : Fin 2) * 10000 + 1 * (j 0).val; omega
    | ⟨1, _⟩ => show win3_0.index t (1 : Fin 2) * 64 + 1 * (j 1).val = win3_4.index t (1 : Fin 2) * 64 + 1 * (j 1).val; omega
  have p1 : ((cfg3.win 1).blk t).view.emb j = ((cfg3.win 4).blk t).view.emb j := by
    funext a; apply Fin.ext
    match a with
    | ⟨0, _⟩ => show win3_1.index t (0 : Fin 2) * 10000 + 1 * (j 0).val = win3_4.index t (0 : Fin 2) * 10000 + 1 * (j 0).val; omega
    | ⟨1, _⟩ => show win3_1.index t (1 : Fin 2) * 64 + 1 * (j 1).val = win3_4.index t (1 : Fin 2) * 64 + 1 * (j 1).val; omega
  have p2 : ((cfg3.win 2).blk t).view.emb (colOf j) = Cert.ReferenceIdeal.Read.idx_main_v87 (((cfg3.win 4).blk t).view.emb j) := by
    funext a; apply Fin.ext
    match a with
    | ⟨0, _⟩ => show win3_2.index t (0 : Fin 2) * 10000 + 1 * (j 0).val = win3_4.index t (0 : Fin 2) * 10000 + 1 * (j 0).val; omega
    | ⟨1, _⟩ => show win3_2.index t (1 : Fin 2) * 1 + 1 * 0 = 0; omega
  have p3 : ((cfg3.win 3).blk t).view.emb (rowOf j) = Cert.ReferenceIdeal.Read.idx_main_v91 (((cfg3.win 4).blk t).view.emb j) := by
    funext a; apply Fin.ext
    match a with
    | ⟨0, _⟩ => show win3_3.index t (0 : Fin 2) * 1 + 1 * 0 = 0; omega
    | ⟨1, _⟩ => show win3_3.index t (1 : Fin 2) * 64 + 1 * (j 1).val = win3_4.index t (1 : Fin 2) * 64 + 1 * (j 1).val; omega
  have h0 : (iblk3 V c 0 t j : EReal) = V c main_v56 (((cfg3.win 4).blk t).view.emb j) := congrArg (V c main_v56) p0
  have h1 : (iblk3 V c 1 t j : EReal) = V c main_v44 (((cfg3.win 4).blk t).view.emb j) := congrArg (V c main_v44) p1
  have h2 : (iblk3 V c 2 t (colOf j) : EReal)
      = V c main_v12 (Cert.ReferenceIdeal.Read.idx_main_v87 (((cfg3.win 4).blk t).view.emb j)) := congrArg (V c main_v12) p2
  have h3 : (iblk3 V c 3 t (rowOf j) : EReal)
      = V c main_v57 (Cert.ReferenceIdeal.Read.idx_main_v91 (((cfg3.win 4).blk t).view.emb j)) := congrArg (V c main_v57) p3
  rw [h0, h1, h2, h3]
  rfl

/-- An index of the output array is in point `t`'s block iff each coordinate is in the block's range on its axis. -/
theorem mem_block (t : Fin cfg3.N) (i : S100000x64.Idx) :
    i ∈ ((cfg3.win 4).blk t).view.set ↔ ∀ a : Fin 2, win3_4.index t a * S10000x64.size a ≤ (i a).val ∧ (i a).val < win3_4.index t a * S10000x64.size a + S10000x64.size a := by
  show i ∈ ((View.whole main_v58).slice (win3_4.rect t)).set ↔ _
  rw [View.set_slice_whole, Rect.mem_set_unit]
  exact Iff.rfl

/-- Row `r` of the output lies in the block of point `r / 10000`. -/
theorem covered (i : S100000x64.Idx) :
    ∃ t : Fin cfg3.N, (cfg3.win 4).flush t = true ∧ i ∈ ((cfg3.win 4).blk t).view.set := by
  have hi0 : (i 0).val < 100000 := (i 0).isLt
  have hi1 : (i 1).val < 64 := (i 1).isLt
  obtain ⟨t, ht⟩ := block_onto ⟨(i 0).val / 10000, by omega⟩
  have q0 : win3_4.index t (0 : Fin 2) = (i 0).val / 10000 := congrFun ht 0
  have q1 : win3_4.index t (1 : Fin 2) = 0 := congrFun ht 1
  refine ⟨t, flush3_4 t, ?_⟩
  rw [mem_block]
  intro a
  match a with
  | ⟨0, _⟩ => show win3_4.index t (0 : Fin 2) * 10000 ≤ (i 0).val ∧ (i 0).val < win3_4.index t (0 : Fin 2) * 10000 + 10000; omega
  | ⟨1, _⟩ => show win3_4.index t (1 : Fin 2) * 64 ≤ (i 1).val ∧ (i 1).val < win3_4.index t (1 : Fin 2) * 64 + 64; omega

/-- The array region 3 leaves is the combine of the four arrays the region found. -/
theorem combined (c : Dev nD) :
    (dat3 (F := Ideal) V c).arrAt 4 cfg3.N = combine (V c main_v56) (V c main_v44) (V c main_v12) (V c main_v57) :=
  (dat3 (F := Ideal) V c).arrAt_eq_of_cover 4 _ (fun t _ => flushed_eq V c t) covered

end Cert.KernelIdeal.Combine3

end
-- ==== Proof.Layer2.lean ====
/-
  The second layer, boundary by boundary.

  Region 2 leaves the untiled product of the first layer's activations with the second weight. The third host stretch
  gathers that product's rows at the edge sources, scales by the edge coefficients and scatter-adds at the edge
  targets. The kernel computed the degrees, their inverse roots and the edge coefficients ONCE, before the first
  layer; the reference computes them again for its second layer, by the same operations from the same edge list, so
  the two are the same arrays. Region 3 then leaves `(agg + xw * d) + b` with the second bias: the reference's second
  layer.
-/
import proofs.«131065_j22316650070136_1_alg».proof.Proof.Layer1
import proofs.«131065_j22316650070136_1_alg».proof.Proof.Product2
import proofs.«131065_j22316650070136_1_alg».proof.Proof.Combine3

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Cert.ReferenceIdeal.Read

/-- The reference's second bias row is the second bias reshaped to a row. -/
theorem row_of_64' (x : FVec Ideal S64 .f32) :
    shapeCast S1x64 x shapeCasts_S64_S1x64 = val_main_v90 (F := Ideal) x := by
  funext i
  obtain ⟨u, q, rfl⟩ : ∃ (u : Fin 1) (q : Fin 64), i = ValueIdx.ix2 u q := ⟨i 0, i 1, ValueIdx.eq_ix2 i⟩
  rw [val_main_v90_apply]
  exact (ValueIdx.shapeCast_a_1a_apply x shapeCasts_S64_S1x64 u q).trans
    (congrArg x (funext fun a => Fin.ext (by match a with | ⟨0, _⟩ => rfl)))

/-- The reference recomputes the degree column for its second layer from the same edge list by the same
    operations: the same array. -/
theorem dcol_twice (x1 : (⟨S2x1600000, .i32⟩ : BufTy).Contents (Elt Ideal)) :
    val_main_v86 (F := Ideal) x1 = val_main_v41 (F := Ideal) x1 := rfl

/-- And the edge coefficients. -/
theorem coef_twice (x1 : (⟨S2x1600000, .i32⟩ : BufTy).Contents (Elt Ideal)) :
    val_main_v72 (F := Ideal) x1 = val_main_v27 (F := Ideal) x1 := rfl

/-- The reference's second product is the untiled product of its activations with the second weight, entry by
    entry. -/
theorem second_product_eq (x0 : FVec Ideal S100000x128 .f32) (x1 : (⟨S2x1600000, .i32⟩ : BufTy).Contents (Elt Ideal))
    (x3 : FVec Ideal S128x64 .f32) (x4 : FVec Ideal S64 .f32) (x5 : FVec Ideal S64x64 .f32) :
    val_main_v49 (F := Ideal) x0 x1 x3 x4 x5 = Product2.product (val_main_v48 (F := Ideal) x0 x1 x3 x4) x5 :=
  funext fun i => val_main_v49_apply x0 x1 x3 x4 x5 i

/-- The reference's second layer is the combine of its second aggregated messages, its second product, its degree
    column and its second bias row, entry by entry. -/
theorem second_layer_eq (x0 : FVec Ideal S100000x128 .f32) (x1 : (⟨S2x1600000, .i32⟩ : BufTy).Contents (Elt Ideal))
    (x3 : FVec Ideal S128x64 .f32) (x4 : FVec Ideal S64 .f32) (x5 : FVec Ideal S64x64 .f32) (x6 : FVec Ideal S64 .f32) :
    val_main_v92 (F := Ideal) x0 x1 x3 x4 x5 x6
      = Combine3.combine (val_main_v84 (F := Ideal) x0 x1 x3 x4 x5) (val_main_v49 (F := Ideal) x0 x1 x3 x4 x5) (val_main_v86 (F := Ideal) x1)
          (val_main_v90 (F := Ideal) x6) := by
  funext i
  rw [val_main_v92_apply, val_main_v89_apply, val_main_v88_apply, val_main_v87_apply, val_main_v91_apply]
  rfl

variable (m : (ℓ : Loc nD τ sig) → Buf (Elt Ideal) ℓ) (ρ : Dev nD → PrngReg)

/-! ## At region 2's exit -/

/-- The second product. -/
theorem exit2_xw (c : Dev nD) :
    W5 m ρ c (Proc.devRef .tc main_v44) = val_main_v49 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W5_arr m ρ c 2).trans ((Product2.multiplied (V4 m ρ) c).trans ?_)
  show Product2.product (W4 m ρ c (Proc.devRef .tc main_v43)) (W4 m ρ c (Proc.devRef .tc main_arg5)) = _
  rw [exit1_h, exit1_arg5]
  exact (second_product_eq _ _ _ _ _).symm

theorem exit2_src (c : Dev nD) : W5 m ρ c (Proc.devRef .tc main_v1) = val_main_v1 (F := Ideal) (m ((c : Thread nD τ).loc main_arg1)) :=
  (W5_of_ne m ρ c main_v1 (by decide)).trans (exit1_src m ρ c)
theorem exit2_dst (c : Dev nD) : W5 m ρ c (Proc.devRef .tc main_v3) = val_main_v3 (F := Ideal) (m ((c : Thread nD τ).loc main_arg1)) :=
  (W5_of_ne m ρ c main_v3 (by decide)).trans (exit1_dst m ρ c)
theorem exit2_coef (c : Dev nD) : W5 m ρ c (Proc.devRef .tc main_v28) = val_main_v27 (F := Ideal) (m ((c : Thread nD τ).loc main_arg1)) :=
  (W5_of_ne m ρ c main_v28 (by decide)).trans (exit1_coef m ρ c)
theorem exit2_dcol (c : Dev nD) : W5 m ρ c (Proc.devRef .tc main_v12) = val_main_v41 (F := Ideal) (m ((c : Thread nD τ).loc main_arg1)) :=
  (W5_of_ne m ρ c main_v12 (by decide)).trans (exit1_dcol m ρ c)
theorem exit2_arg2 (c : Dev nD) : W5 m ρ c (Proc.devRef .tc main_arg2) = m ((c : Thread nD τ).loc main_arg2) :=
  (W5_of_ne m ρ c main_arg2 (by decide)).trans (exit1_arg2 m ρ c)
theorem exit2_arg6 (c : Dev nD) : W5 m ρ c (Proc.devRef .tc main_arg6) = m ((c : Thread nD τ).loc main_arg6) :=
  (W5_of_ne m ρ c main_arg6 (by decide)).trans (exit1_arg6 m ρ c)
theorem exit2_arg7 (c : Dev nD) : W5 m ρ c (Proc.devRef .tc main_arg7) = m ((c : Thread nD τ).loc main_arg7) :=
  (W5_of_ne m ρ c main_arg7 (by decide)).trans (exit1_arg7 m ρ c)
theorem exit2_arg8 (c : Dev nD) : W5 m ρ c (Proc.devRef .tc main_arg8) = m ((c : Thread nD τ).loc main_arg8) :=
  (W5_of_ne m ρ c main_arg8 (by decide)).trans (exit1_arg8 m ρ c)

/-! ## At region 3's entry: after the third stretch -/

/-- The second layer's aggregated messages. -/
theorem entry6_agg (c : Dev nD) :
    W6 m ρ c (Proc.devRef .tc main_v56) = val_main_v84 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps3 (W5 m ρ c) (Proc.devRef .tc main_v56) = _
  after_results_simp
  rw [exit2_xw, exit2_src, exit2_dst, exit2_coef, ← coef_twice]
  rfl

/-- The second bias as a row. -/
theorem entry6_brow (c : Dev nD) :
    W6 m ρ c (Proc.devRef .tc main_v57) = val_main_v90 (F := Ideal) (m ((c : Thread nD τ).loc main_arg6)) := by
  show StableHlo.after hostOps3 (W5 m ρ c) (Proc.devRef .tc main_v57) = _
  after_results_simp
  rw [exit2_arg6]
  exact row_of_64' _

theorem entry6_xw (c : Dev nD) :
    W6 m ρ c (Proc.devRef .tc main_v44) = val_main_v49 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps3 (W5 m ρ c) (Proc.devRef .tc main_v44) = _
  after_results_simp
  exact exit2_xw m ρ c
theorem entry6_dcol (c : Dev nD) : W6 m ρ c (Proc.devRef .tc main_v12) = val_main_v41 (F := Ideal) (m ((c : Thread nD τ).loc main_arg1)) := by
  show StableHlo.after hostOps3 (W5 m ρ c) (Proc.devRef .tc main_v12) = _
  after_results_simp
  exact exit2_dcol m ρ c
theorem entry6_arg2 (c : Dev nD) : W6 m ρ c (Proc.devRef .tc main_arg2) = m ((c : Thread nD τ).loc main_arg2) := by
  show StableHlo.after hostOps3 (W5 m ρ c) (Proc.devRef .tc main_arg2) = _
  after_results_simp
  exact exit2_arg2 m ρ c
theorem entry6_arg7 (c : Dev nD) : W6 m ρ c (Proc.devRef .tc main_arg7) = m ((c : Thread nD τ).loc main_arg7) := by
  show StableHlo.after hostOps3 (W5 m ρ c) (Proc.devRef .tc main_arg7) = _
  after_results_simp
  exact exit2_arg7 m ρ c
theorem entry6_arg8 (c : Dev nD) : W6 m ρ c (Proc.devRef .tc main_arg8) = m ((c : Thread nD τ).loc main_arg8) := by
  show StableHlo.after hostOps3 (W5 m ρ c) (Proc.devRef .tc main_arg8) = _
  after_results_simp
  exact exit2_arg8 m ρ c

/-! ## At region 3's exit -/

/-- The second layer. -/
theorem exit3_h (c : Dev nD) :
    W7 m ρ c (Proc.devRef .tc main_v58) = val_main_v92 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W7_arr m ρ c 4).trans ((Combine3.combined (V6 m ρ) c).trans ?_)
  show Combine3.combine (W6 m ρ c (Proc.devRef .tc main_v56)) (W6 m ρ c (Proc.devRef .tc main_v44)) (W6 m ρ c (Proc.devRef .tc main_v12))
      (W6 m ρ c (Proc.devRef .tc main_v57)) = _
  rw [entry6_agg, entry6_xw, entry6_dcol, entry6_brow, ← dcol_twice]
  exact (second_layer_eq _ _ _ _ _ _).symm

theorem exit3_arg2 (c : Dev nD) : W7 m ρ c (Proc.devRef .tc main_arg2) = m ((c : Thread nD τ).loc main_arg2) :=
  (W7_of_ne m ρ c main_arg2 (by decide)).trans (entry6_arg2 m ρ c)
theorem exit3_arg7 (c : Dev nD) : W7 m ρ c (Proc.devRef .tc main_arg7) = m ((c : Thread nD τ).loc main_arg7) :=
  (W7_of_ne m ρ c main_arg7 (by decide)).trans (entry6_arg7 m ρ c)
theorem exit3_arg8 (c : Dev nD) : W7 m ρ c (Proc.devRef .tc main_arg8) = m ((c : Thread nD τ).loc main_arg8) :=
  (W7_of_ne m ρ c main_arg8 (by decide)).trans (entry6_arg8 m ρ c)

end Cert.KernelIdeal.Chain

end
-- ==== Proof.Head4.lean ====
/-
  The linear head, as one whole-array function.

  Region 4 has one grid point: it fetches the whole 64 x 64 array of pooled means, the whole 64 x 6 weight and the
  1 x 6 bias row, and writes back `pooled · w + b`, the bias row spread down the columns. At the ideal values entry
  `(g, o)` of what it stores is the sum over the 64 contracted positions `k` of `pooled[g, k] * w[k, o]`, plus `b[0, o]`.
  Its one block is the whole output array, so that is the array the region leaves.
-/
import proofs.«131065_j22316650070136_1_alg».proof.Proof.Gen.KernelIdeal.Frame
import proofs.«131065_j22316650070136_1_alg».proof.Proof.Gen.ReferenceIdeal.Read
import Idealize.ShloMosaic.Lib.Pipeline.Value
import Idealize.ShloMosaic.PureOps.Ideal.Laws
import Idealize.ShloMosaic.Lib.ValueIdx

set_option maxRecDepth 16384

noncomputable section

namespace Cert.KernelIdeal.Head4

open Cert.KernelIdeal Cert.KernelIdeal.Gen
open Idealize.ShloMosaic Idealize.ShloMosaic.TcCoe Idealize.SL.Sem
open Idealize.ShloMosaic.Pipeline (Dat)

/-- The left operand's entry that output entry `j` meets at contracted position `k`: row of `j`, column `k`. -/
abbrev lrow (j : S64x6.Idx) (k : Fin 64) : S64x64.Idx := fun a => match a with
  | ⟨0, _⟩ => ⟨(j 0).val, (j 0).isLt⟩
  | ⟨1, _⟩ => ⟨k.val, k.isLt⟩
/-- The right operand's: row `k`, column of `j`. -/
abbrev rcol (j : S64x6.Idx) (k : Fin 64) : S64x6.Idx := fun a => match a with
  | ⟨0, _⟩ => ⟨k.val, k.isLt⟩
  | ⟨1, _⟩ => ⟨(j 1).val, (j 1).isLt⟩
/-- The bias entry it meets: the one row, same column. -/
abbrev rowOf (j : S64x6.Idx) : S1x6.Idx := fun a => match a with
  | ⟨0, _⟩ => ⟨0, Nat.one_pos⟩
  | ⟨1, _⟩ => ⟨(j 1).val, (j 1).isLt⟩

theorem lhs_row (j : S64x6.Idx) (q : dot_S64x64_S64x6_S64x6_1_0_0_1_n_n.contr.Idx) :
    (dot_S64x64_S64x6_S64x6_1_0_0_1_n_n.lhsIdx j q 0).val = (j 0).val := by
  unfold DotDims.lhsIdx
  rw [dif_neg (show ¬(0 : Fin S64x64.rank) ∈ dot_S64x64_S64x6_S64x6_1_0_0_1_n_n.lhsBatch by decide), dif_pos (show (0 : Fin S64x64.rank) ∈ dot_S64x64_S64x6_S64x6_1_0_0_1_n_n.lhsNonContracting by decide)]
  rfl
theorem lhs_col (j : S64x6.Idx) (q : dot_S64x64_S64x6_S64x6_1_0_0_1_n_n.contr.Idx) :
    (dot_S64x64_S64x6_S64x6_1_0_0_1_n_n.lhsIdx j q 1).val = (q ⟨0, by decide⟩).val :=
  dot_S64x64_S64x6_S64x6_1_0_0_1_n_n.lhsIdx_val_of_single rfl j q
theorem rhs_row (j : S64x6.Idx) (q : dot_S64x64_S64x6_S64x6_1_0_0_1_n_n.contr.Idx) :
    (dot_S64x64_S64x6_S64x6_1_0_0_1_n_n.rhsIdx j q 0).val = (q ⟨0, by decide⟩).val :=
  dot_S64x64_S64x6_S64x6_1_0_0_1_n_n.rhsIdx_val_of_single rfl j q
theorem rhs_col (j : S64x6.Idx) (q : dot_S64x64_S64x6_S64x6_1_0_0_1_n_n.contr.Idx) :
    (dot_S64x64_S64x6_S64x6_1_0_0_1_n_n.rhsIdx j q 1).val = (j 1).val := by
  unfold DotDims.rhsIdx
  rw [dif_neg (show ¬(1 : Fin S64x6.rank) ∈ dot_S64x64_S64x6_S64x6_1_0_0_1_n_n.rhsBatch by decide), dif_pos (show (1 : Fin S64x6.rank) ∈ dot_S64x64_S64x6_S64x6_1_0_0_1_n_n.rhsNonContracting by decide)]
  rfl

/-- The head's product alone, entry by entry. -/
theorem head_product_apply (p : FVec Ideal S64x64 .bf16) (w : FVec Ideal S64x6 .bf16) (j : S64x6.Idx) :
    FloatOps.matmul dot_S64x64_S64x6_S64x6_1_0_0_1_n_n none p w (constant S64x6 .f32 0x00000000#32) j
      = ∑ k : Fin 64, p (lrow j k) * w (rcol j k) := by
  rw [Ideal.matmul_constant_zero_apply, ← Equiv.sum_comp (ValueIdx.contrEquiv1 dot_S64x64_S64x6_S64x6_1_0_0_1_n_n 64 rfl rfl).symm]
  refine Finset.sum_congr rfl fun k _ => ?_
  have hk := ValueIdx.contrEquiv1_symm_val dot_S64x64_S64x6_S64x6_1_0_0_1_n_n 64 rfl rfl k
  have el : dot_S64x64_S64x6_S64x6_1_0_0_1_n_n.lhsIdx j ((ValueIdx.contrEquiv1 dot_S64x64_S64x6_S64x6_1_0_0_1_n_n 64 rfl rfl).symm k) = lrow j k := funext fun a => Fin.ext (by
    match a with
    | ⟨0, _⟩ => exact lhs_row _ _
    | ⟨1, _⟩ => exact (lhs_col _ _).trans hk)
  have er : dot_S64x64_S64x6_S64x6_1_0_0_1_n_n.rhsIdx j ((ValueIdx.contrEquiv1 dot_S64x64_S64x6_S64x6_1_0_0_1_n_n 64 rfl rfl).symm k) = rcol j k := funext fun a => Fin.ext (by
    match a with
    | ⟨0, _⟩ => exact (rhs_row _ _).trans hk
    | ⟨1, _⟩ => exact rhs_col _ _)
  rw [el, er]

/-- What the head's body stores, entry by entry: the product's sum plus the bias entry of the column. -/
theorem k4_pay1_apply (p : Vec Ideal S64x64 .f32) (w : Vec Ideal S64x6 .f32) (b : Vec Ideal S1x6 .f32) (j : S64x6.Idx) :
    k4_pay1 (F := Ideal) p w b j = FloatOps.addf (∑ k : Fin 64, p (lrow j k) * w (rcol j k)) (b (rowOf j)) := by
  unfold k4_pay1
  simp only [shapeCast_self, matmul]
  show FloatOps.addf (F := Ideal) (FloatOps.matmul dot_S64x64_S64x6_S64x6_1_0_0_1_n_n none (truncf .bf16 p bitsLt_bf16_f32) (truncf .bf16 w bitsLt_bf16_f32)
      (constant S64x6 .f32 0x00000000#32) j) (broadcastTo S64x6 b broadcasts_S1x6_S64x6 j) = _
  rw [broadcastTo_apply b broadcasts_S1x6_S64x6 j (rowOf j) (fun a => match a with
      | ⟨0, _⟩ => by show 0 = if (1 : Nat) = 1 then 0 else (j 0).val; rw [if_pos rfl]
      | ⟨1, _⟩ => by show (j 1).val = if (6 : Nat) = 1 then 0 else (j 1).val; rw [if_neg (by decide)]),
    head_product_apply]
  rfl

/-- The head of three whole arrays, entry by entry. -/
def head (p : FVec Ideal S64x64 .f32) (w : FVec Ideal S64x6 .f32) (b : FVec Ideal S1x6 .f32) : FVec Ideal S64x6 .f32 :=
  fun i => FloatOps.addf (∑ k : Fin 64, p (Cert.ReferenceIdeal.Read.lidx_main_v105 i k) * w (Cert.ReferenceIdeal.Read.ridx_main_v105 i k))
    (b (Cert.ReferenceIdeal.Read.idx_main_v107 i))

variable (V : (c : Dev nD) → (b : Ref sig .tc) → Buf (Elt Ideal) ((c : Thread nD τ).loc b))

theorem zeros2 : (![0, 0] : Fin 2 → Nat) = fun _ => 0 := funext fun a => by fin_cases a <;> rfl

/-- The printed index maps at the one grid point: every window sits at its one block. -/
theorem block_indices : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

/-- There is a grid point. -/
theorem a_point : ∃ t : Fin cfg4.N, win4_3.index t = ![0, 0] :=
  (by decide +kernel : ∃ t : Fin grid4.N, win4_3.index t = ![0, 0])

/-- What the one point writes back is the (one) block of the head of the arrays the region was entered with. -/
theorem flushed_eq (c : Dev nD) (t : Fin cfg4.N) :
    (dat4 (F := Ideal) V c).flushed 3 t = ((cfg4.win 3).blk t).view.read (Elt Ideal)
      (head (V c main_v70) (V c main_arg7) (V c main_v71)) := by
  show (cfg4.win 3).cut (grid4.coords t) ((dat4 (F := Ideal) V c).after 3 t) = _
  rw [after4_3]
  unfold out4_3
  rw [View.canon_unit_zero zeros2]
  simp only [View.ld_unit_zero (S := S64x64) zeros2, View.ld_unit_zero (S := S64x6) zeros2, View.ld_unit_zero (S := S1x6) zeros2]
  obtain ⟨e00, e01, e10, e11, e20, e21, e30, e31⟩ := block_indices t
  funext j
  show k4_pay1 (F := Ideal) (iblk4 V c 0 t) (iblk4 V c 1 t) (iblk4 V c 2 t) j
    = head (V c main_v70) (V c main_arg7) (V c main_v71) (((cfg4.win 3).blk t).view.emb j)
  refine (k4_pay1_apply (iblk4 V c 0 t) (iblk4 V c 1 t) (iblk4 V c 2 t) j).trans ?_
  have p2 : ((cfg4.win 2).blk t).view.emb (rowOf j) = Cert.ReferenceIdeal.Read.idx_main_v107 (((cfg4.win 3).blk t).view.emb j) := by
    funext a; apply Fin.ext
    match a with
    | ⟨0, _⟩ => show win4_2.index t (0 : Fin 2) * 1 + 1 * 0 = 0; omega
    | ⟨1, _⟩ => show win4_2.index t (1 : Fin 2) * 6 + 1 * (j 1).val = win4_3.index t (1 : Fin 2) * 6 + 1 * (j 1).val; omega
  have h2 : (iblk4 V c 2 t (rowOf j) : EReal)
      = V c main_v71 (Cert.ReferenceIdeal.Read.idx_main_v107 (((cfg4.win 3).blk t).view.emb j)) := congrArg (V c main_v71) p2
  rw [h2]
  refine congrArg (fun s : EReal => FloatOps.addf (F := Ideal) (φ := .f32) s
    (V c main_v71 (Cert.ReferenceIdeal.Read.idx_main_v107 (((cfg4.win 3).blk t).view.emb j)))) ?_
  refine Finset.sum_congr rfl fun k _ => ?_
  have hl : ((cfg4.win 0).blk t).view.emb (lrow j k)
      = Cert.ReferenceIdeal.Read.lidx_main_v105 (((cfg4.win 3).blk t).view.emb j) k := by
    funext a; apply Fin.ext
    match a with
    | ⟨0, _⟩ => show win4_0.index t (0 : Fin 2) * 64 + 1 * (j 0).val = win4_3.index t (0 : Fin 2) * 64 + 1 * (j 0).val; omega
    | ⟨1, _⟩ => show win4_0.index t (1 : Fin 2) * 64 + 1 * k.val = k.val; omega
  have hr : ((cfg4.win 1).blk t).view.emb (rcol j k)
      = Cert.ReferenceIdeal.Read.ridx_main_v105 (((cfg4.win 3).blk t).view.emb j) k := by
    funext a; apply Fin.ext
    match a with
    | ⟨0, _⟩ => show win4_1.index t (0 : Fin 2) * 64 + 1 * k.val = k.val; omega
    | ⟨1, _⟩ => show win4_1.index t (1 : Fin 2) * 6 + 1 * (j 1).val = win4_3.index t (1 : Fin 2) * 6 + 1 * (j 1).val; omega
  have h0 : (iblk4 V c 0 t (lrow j k) : EReal)
      = V c main_v70 (Cert.ReferenceIdeal.Read.lidx_main_v105 (((cfg4.win 3).blk t).view.emb j) k) :=
    congrArg (V c main_v70) hl
  have h1 : (iblk4 V c 1 t (rcol j k) : EReal)
      = V c main_arg7 (Cert.ReferenceIdeal.Read.ridx_main_v105 (((cfg4.win 3).blk t).view.emb j) k) :=
    congrArg (V c main_arg7) hr
  rw [h0, h1]

/-- An index of the output array is in point `t`'s block iff each coordinate is in the block's range on its axis. -/
theorem mem_block (t : Fin cfg4.N) (i : S64x6.Idx) :
    i ∈ ((cfg4.win 3).blk t).view.set ↔ ∀ a : Fin 2, win4_3.index t a * S64x6.size a ≤ (i a).val ∧ (i a).val < win4_3.index t a * S64x6.size a + S64x6.size a := by
  show i ∈ ((View.whole main_v72).slice (win4_3.rect t)).set ↔ _
  rw [View.set_slice_whole, Rect.mem_set_unit]
  exact Iff.rfl

/-- Every entry of the output lies in the one block. -/
theorem covered (i : S64x6.Idx) :
    ∃ t : Fin cfg4.N, (cfg4.win 3).flush t = true ∧ i ∈ ((cfg4.win 3).blk t).view.set := by
  have hi0 : (i 0).val < 64 := (i 0).isLt
  have hi1 : (i 1).val < 6 := (i 1).isLt
  obtain ⟨t, ht⟩ := a_point
  have q0 : win4_3.index t (0 : Fin 2) = 0 := congrFun ht 0
  have q1 : win4_3.index t (1 : Fin 2) = 0 := congrFun ht 1
  refine ⟨t, flush4_3 t, ?_⟩
  rw [mem_block]
  intro a
  match a with
  | ⟨0, _⟩ => show win4_3.index t (0 : Fin 2) * 64 ≤ (i 0).val ∧ (i 0).val < win4_3.index t (0 : Fin 2) * 64 + 64; omega
  | ⟨1, _⟩ => show win4_3.index t (1 : Fin 2) * 6 ≤ (i 1).val ∧ (i 1).val < win4_3.index t (1 : Fin 2) * 6 + 6; omega

/-- The array region 4 leaves is the head of the three arrays the region found. -/
theorem applied (c : Dev nD) :
    (dat4 (F := Ideal) V c).arrAt 3 cfg4.N = head (V c main_v70) (V c main_arg7) (V c main_v71) :=
  (dat4 (F := Ideal) V c).arrAt_eq_of_cover 3 _ (fun t _ => flushed_eq V c t) covered

end Cert.KernelIdeal.Head4

end
-- ==== Proof.Pool.lean ====
/-
  The pooling stretch and the head.

  The last host stretch scatter-adds the second layer's rows at each node's graph, counts each graph's nodes the same
  way, and divides each graph's sum by `max (count, 1)`: the reference's pooled means, by the same operations on equal
  operands. It also reshapes the last bias to a row, which is the reference's broadcast of it to a row. Region 4 then
  leaves `pooled · Wl + bl`: the reference's result.
-/
import proofs.«131065_j22316650070136_1_alg».proof.Proof.Layer2
import proofs.«131065_j22316650070136_1_alg».proof.Proof.Head4

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Cert.ReferenceIdeal.Read

/-- A vector of 6 reshaped to a row is the vector broadcast to a row: entry `(0, o)` of either is entry `o`. -/
theorem row_of_6 (x : FVec Ideal S6 .f32) :
    shapeCast S1x6 x shapeCasts_S6_S1x6 = val_main_v106 (F := Ideal) x := by
  funext i
  obtain ⟨u, q, rfl⟩ : ∃ (u : Fin 1) (q : Fin 6), i = ValueIdx.ix2 u q := ⟨i 0, i 1, ValueIdx.eq_ix2 i⟩
  rw [val_main_v106_apply]
  exact (ValueIdx.shapeCast_a_1a_apply x shapeCasts_S6_S1x6 u q).trans
    (congrArg x (funext fun a => Fin.ext (by match a with | ⟨0, _⟩ => rfl)))

/-- The reference's result is the head of its pooled means, the last weight and its last bias row, entry by entry. -/
theorem result_eq (x0 : FVec Ideal S100000x128 .f32) (x1 : (⟨S2x1600000, .i32⟩ : BufTy).Contents (Elt Ideal))
    (x2 : (⟨S100000, .i32⟩ : BufTy).Contents (Elt Ideal)) (x3 : FVec Ideal S128x64 .f32) (x4 : FVec Ideal S64 .f32)
    (x5 : FVec Ideal S64x64 .f32) (x6 : FVec Ideal S64 .f32) (x7 : FVec Ideal S64x6 .f32) (x8 : FVec Ideal S6 .f32) :
    val_main_v108 (F := Ideal) x0 x1 x2 x3 x4 x5 x6 x7 x8
      = Head4.head (val_main_v104 (F := Ideal) x0 x1 x2 x3 x4 x5 x6) x7 (val_main_v106 (F := Ideal) x8) := by
  funext i
  rw [val_main_v108_apply, val_main_v105_apply, val_main_v107_apply]
  rfl

variable (m : (ℓ : Loc nD τ sig) → Buf (Elt Ideal) ℓ) (ρ : Dev nD → PrngReg)

/-! ## At region 4's entry: after the last stretch -/

/-- The pooled means. -/
theorem entry8_pooled (c : Dev nD) :
    W8 m ρ c (Proc.devRef .tc main_v70)
      = val_main_v104 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  show StableHlo.after hostOps4 (W7 m ρ c) (Proc.devRef .tc main_v70) = _
  after_results_simp
  rw [exit3_h, exit3_arg2]
  rfl

/-- The last bias as a row. -/
theorem entry8_brow (c : Dev nD) :
    W8 m ρ c (Proc.devRef .tc main_v71) = val_main_v106 (F := Ideal) (m ((c : Thread nD τ).loc main_arg8)) := by
  show StableHlo.after hostOps4 (W7 m ρ c) (Proc.devRef .tc main_v71) = _
  after_results_simp
  rw [exit3_arg8]
  exact row_of_6 _

theorem entry8_arg7 (c : Dev nD) : W8 m ρ c (Proc.devRef .tc main_arg7) = m ((c : Thread nD τ).loc main_arg7) := by
  show StableHlo.after hostOps4 (W7 m ρ c) (Proc.devRef .tc main_arg7) = _
  after_results_simp
  exact exit3_arg7 m ρ c

/-! ## At the return -/

/-- The result array at the last boundary is the reference's result stage of the arguments as launched. -/
theorem exit4_result (c : Dev nD) :
    W9 m ρ c (Proc.devRef .tc main_v72)
      = val_main_v108 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  refine (W9_arr m ρ c 3).trans ((Head4.applied (V8 m ρ) c).trans ?_)
  show Head4.head (W8 m ρ c (Proc.devRef .tc main_v70)) (W8 m ρ c (Proc.devRef .tc main_arg7)) (W8 m ρ c (Proc.devRef .tc main_v71)) = _
  rw [entry8_pooled, entry8_arg7, entry8_brow]
  exact (result_eq _ _ _ _ _ _ _ _ _).symm

end Cert.KernelIdeal.Chain

end
-- ==== Proof.lean ====
/-
  A two-layer graph convolution with mean pooling and a linear head, tiled for the TPU, against its plain reference.

  Both programs compute, from node features `x`, an edge list, each node's graph and three weight/bias pairs:
  `deg = 1 + (number of edges into each node)`, `dinv = deg^(-1/2)`, an edge coefficient `dinv[src] * dinv[dst]`, then
  per layer `(scatter-add over edge targets of (xw[src] * coef) + xw * dinv^2) + b` with `xw` the layer's input times its
  weight (a relu after the first layer), then each graph's mean of the second layer's rows (sum over its nodes divided
  by `max (count, 1)`) and `pooled · Wl + bl`. The kernel differs from the reference only in HOW it computes five of
  these steps: the two big products and the two combines run in row blocks of 10000 over a grid of ten points, the
  head product as one block, operands rounded to bf16 before each product; and it computes the degree quantities once
  where the reference computes them once per layer. Over the extended reals none of that changes a value: rounding is
  the identity, a block's product entry is the same finite sum over the contracted axis as the untiled product's, the
  combines are entry by entry, the row blocks tile the rows, and recomputing the degrees gives the same arrays. Every
  other step — each gather, each scatter-add, the division — is the same operation applied to operands already known
  equal. No algebraic law beyond that is used, and no finiteness of the inputs.

  The three frames: the kernel's two are the generated frame certificates; the reference has no kernel and its frame
  is its generated run with the result dropped. The idealization rewrote nothing, so `preserves` is trivial. For
  `algebraic`, the kernel's run ends with its result array at the last segment boundary's contents
  (Proof/KernelRun.lean), those contents are the reference's result stage of the arguments (Proof/Pool.lean, at the
  end of a chain through every boundary), and the reference's run ends at that same stage of arguments that agree.
-/
import proofs.«131065_j22316650070136_1_alg».proof.Defs
import proofs.«131065_j22316650070136_1_alg».proof.Proof.Gen.Kernel
import proofs.«131065_j22316650070136_1_alg».proof.Proof.Gen.Kernel.Skeleton
import proofs.«131065_j22316650070136_1_alg».proof.Proof.Gen.Kernel.Launch
import proofs.«131065_j22316650070136_1_alg».proof.Proof.Gen.Kernel.Points
import proofs.«131065_j22316650070136_1_alg».proof.Proof.Gen.Kernel.Frame
import proofs.«131065_j22316650070136_1_alg».proof.Proof.Gen.KernelIdeal
import proofs.«131065_j22316650070136_1_alg».proof.Proof.Gen.KernelIdeal.Skeleton
import proofs.«131065_j22316650070136_1_alg».proof.Proof.Gen.KernelIdeal.Launch
import proofs.«131065_j22316650070136_1_alg».proof.Proof.Gen.KernelIdeal.Points
import proofs.«131065_j22316650070136_1_alg».proof.Proof.Gen.KernelIdeal.Frame
import proofs.«131065_j22316650070136_1_alg».proof.Proof.Gen.ReferenceIdeal
import proofs.«131065_j22316650070136_1_alg».proof.Proof.Gen.Pre_finite_inputs
import proofs.«131065_j22316650070136_1_alg».proof.Proof.Gen.ReferenceIdeal.Run
import proofs.«131065_j22316650070136_1_alg».proof.Proof.Gen.ReferenceIdeal.Read
import proofs.«131065_j22316650070136_1_alg».proof.Proof.KernelRun
import proofs.«131065_j22316650070136_1_alg».proof.Proof.Pool
import Idealize.ShloMosaic.Adequacy
import Idealize.ShloMosaic.Init

noncomputable section

namespace Cert.Proof

open Idealize.ShloMosaic Idealize.SL.Sem

/-- The kernel as printed runs, faults nowhere and leaves its arguments as launched. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both idealized programs end with the same result array: the
    reference's result stage of the arguments. -/
theorem algebraic : Cert.algebraic_KernelIdeal_ReferenceIdeal := by
  intro m ρ m' ρ' _ hagree
  refine ⟨_, (θ_run Cert.KernelIdeal.defs _ _).mono
    (fun r h c => ⟨(h c).1.trans (Cert.KernelIdeal.Chain.exit4_result m ρ c), (h c).2⟩) (Cert.KernelIdeal.Result.run (F := Ideal) m ρ), ?_⟩
  refine (θ_run Cert.ReferenceIdeal.defs _ _).mono (fun r h c => ⟨(h c).1.trans ?_, (h c).2⟩)
    (Cert.ReferenceIdeal.Value.run (F := Ideal) m' ρ')
  rw [Cert.ReferenceIdeal.Read.val_main_v108_eq]
  obtain ⟨a0, a1, a2, a3, a4, a5, a6, a7, a8⟩ := hagree c
  rw [a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
